-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x16x2048x2048 : Shape := ⟨4, ![2, 16, 2048, 2048]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024x1024 .f32) (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S2x2048x1024 .f32) (main_arg2 : FVec F S2x2048x1024 .f32) (main_arg3 : FVec F S2x16x2048x2048 .f32) (main_arg4 : FVec F S1024x1024 .f32) (main_arg5 : FVec F S1024x1024 .f32) (main_arg6 : FVec F S1024x1024 .f32) (main_arg7 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S2x16x2048x2048 : Shape := ⟨4, ![2, 16, 2048, 2048]⟩
abbrev S1024x1024 : Shape := ⟨2, ![1024, 1024]⟩
abbrev S2x16x2048x64 : Shape := ⟨4, ![2, 16, 2048, 64]⟩
abbrev S1x2048x1024 : Shape := ⟨3, ![1, 2048, 1024]⟩
abbrev S64x1024 : Shape := ⟨2, ![64, 1024]⟩
abbrev S1x1x2048x64 : Shape := ⟨4, ![1, 1, 2048, 64]⟩
abbrev S2048x1024 : Shape := ⟨2, ![2048, 1024]⟩
abbrev S1024x64 : Shape := ⟨2, ![1024, 64]⟩
abbrev S2048x64 : Shape := ⟨2, ![2048, 64]⟩
abbrev S1x1x512x64 : Shape := ⟨4, ![1, 1, 512, 64]⟩
abbrev S1x1x512x2048 : Shape := ⟨4, ![1, 1, 512, 2048]⟩
abbrev S512x64 : Shape := ⟨2, ![512, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 20
  | .vmem => 38
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x16x2048x2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S2x16x2048x64, .bf16⟩
  | .hbm, ⟨14, _⟩ => ⟨S2x16x2048x64, .bf16⟩
  | .hbm, ⟨15, _⟩ => ⟨S2x16x2048x64, .bf16⟩
  | .hbm, ⟨16, _⟩ => ⟨S2x16x2048x64, .bf16⟩
  | .hbm, ⟨17, _⟩ => ⟨S2x16x2048x2048, .f32⟩
  | .hbm, ⟨18, _⟩ => ⟨S2x16x2048x2048, .f32⟩
  | .hbm, ⟨19, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .bf16⟩
  | .local _ .vmem, ⟨3, _⟩ => ⟨S64x1024, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x2048x1024, .f32⟩
  | .local _ .vmem, ⟨7, _⟩ => ⟨S1x2048x1024, .f32⟩
  | .local _ .vmem, ⟨8, _⟩ => ⟨S64x1024, .bf16⟩
  | .local _ .vmem, ⟨9, _⟩ => ⟨S64x1024, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x2048x1024, .f32⟩
  | .local _ .vmem, ⟨13, _⟩ => ⟨S1x2048x1024, .f32⟩
  | .local _ .vmem, ⟨14, _⟩ => ⟨S64x1024, .bf16⟩
  | .local _ .vmem, ⟨15, _⟩ => ⟨S64x1024, .bf16⟩
  | .local _ .vmem, ⟨16, _⟩ => ⟨S1x1x2048x64, .bf16⟩
  | .local _ .vmem, ⟨17, _⟩ => ⟨S1x1x2048x64, .bf16⟩
  | .local _ .vmem, ⟨18, _⟩ => ⟨S1x1x512x64, .bf16⟩
  | .local _ .vmem, ⟨19, _⟩ => ⟨S1x1x512x64, .bf16⟩
  | .local _ .vmem, ⟨20, _⟩ => ⟨S1x1x2048x64, .bf16⟩
  | .local _ .vmem, ⟨21, _⟩ => ⟨S1x1x2048x64, .bf16⟩
  | .local _ .vmem, ⟨22, _⟩ => ⟨S1x1x2048x64, .bf16⟩
  | .local _ .vmem, ⟨23, _⟩ => ⟨S1x1x2048x64, .bf16⟩
  | .local _ .vmem, ⟨24, _⟩ => ⟨S1x1x512x2048, .f32⟩
  | .local _ .vmem, ⟨25, _⟩ => ⟨S1x1x512x2048, .f32⟩
  | .local _ .vmem, ⟨26, _⟩ => ⟨S1x1x512x64, .bf16⟩
  | .local _ .vmem, ⟨27, _⟩ => ⟨S1x1x512x64, .bf16⟩
  | .local _ .vmem, ⟨28, _⟩ => ⟨S1x1x512x2048, .f32⟩
  | .local _ .vmem, ⟨29, _⟩ => ⟨S1x1x512x2048, .f32⟩
  | .local _ .vmem, ⟨30, _⟩ => ⟨S1x1x512x2048, .f32⟩
  | .local _ .vmem, ⟨31, _⟩ => ⟨S1x1x512x2048, .f32⟩
  | .local _ .vmem, ⟨32, _⟩ => ⟨S1x1x2048x64, .bf16⟩
  | .local _ .vmem, ⟨33, _⟩ => ⟨S1x1x2048x64, .bf16⟩
  | .local _ .vmem, ⟨34, _⟩ => ⟨S64x1024, .bf16⟩
  | .local _ .vmem, ⟨35, _⟩ => ⟨S64x1024, .bf16⟩
  | .local _ .vmem, ⟨36, _⟩ => ⟨S1x2048x1024, .f32⟩
  | .local _ .vmem, ⟨37, _⟩ => ⟨S1x2048x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x2048x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![2, 16, 4], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_6 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S1x1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x1x512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x1x512x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x1x512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev stage3_6 : Fin 2 → Memref sig .tc .vmem S1x1x512x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]

abbrev grid4 : Pipeline.Grid := ⟨2, ![2, 16], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x2048x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S64x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x2048x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  bitsLt_bf16_f32 : FTy.bits .bf16 < FTy.bits .f32
  transposes_S1024x1024_S1024x1024_1_0 : S1024x1024.Transposes [1, 0] S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S64x1024_p1_0_S1024x64 : S64x1024.Transposes [1, 0] S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  packedbf16_S1x1x2048x64_S1x1x2048x64_0_0_0_0 : (Rect.unit (s := S1x1x2048x64) ![0, 0, 0, 0] S1x1x2048x64.size inb_S1x1x2048x64_S1x1x2048x64_0_0_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  shapeCasts_S2048x1024_S1x2048x1024 : S2048x1024.ShapeCasts S1x2048x1024
  dot_S2048x1024_S1024x64_S2048x64_1_0_0_1_n_n_wf : DotDims.WF S2048x1024 S1024x64 S2048x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S1024x1024.size a
  hwx0_1 : ∀ i : grid0.Coords, EltTy.bits .bf16 = 32 ∨ (Rect.block (s := S1024x1024) S64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .bf16 = 32 ∨ (Rect.block (s := S2x16x2048x64) S1x1x2048x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S2x2048x1024.size a
  hwx1_0 : ∀ i : grid1.Coords, EltTy.bits .f32 = 32 ∨ (Rect.block (s := S2x2048x1024) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S1024x1024.size a
  hwx1_1 : ∀ i : grid1.Coords, EltTy.bits .bf16 = 32 ∨ (Rect.block (s := S1024x1024) S64x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x1024.size a ≤ S2x2048x1024.size a
  hwx2_0 : ∀ i : grid2.Coords, EltTy.bits .f32 = 32 ∨ (Rect.block (s := S2x2048x1024) S1x2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S1024x1024.size a
  hwx2_1 : ∀ i : grid2.Coords, EltTy.bits .bf16 = 32 ∨ (Rect.block (s := S1024x1024) S64x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x2048x64.size a ≤ S2x16x2048x64.size a
  hwx2_2 : ∀ i : grid2.Coords, EltTy.bits .bf16 = 32 ∨ (Rect.block (s := S2x16x2048x64) S1x1x2048x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S2x16x2048x64.size a
  hwx3_0 : ∀ i : grid3.Coords, EltTy.bits .bf16 = 32 ∨ (Rect.block (s := S2x16x2048x64) S1x1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x16x2048x64.size a
  hwx3_1 : ∀ i : grid3.Coords, EltTy.bits .bf16 = 32 ∨ (Rect.block (s := S2x16x2048x64) S1x1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x16x2048x64.size a
  hwx3_2 : ∀ i : grid3.Coords, EltTy.bits .bf16 = 32 ∨ (Rect.block (s := S2x16x2048x64) S1x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512x2048.size a ≤ S2x16x2048x2048.size a
  hwx3_3 : ∀ i : grid3.Coords, EltTy.bits .f32 = 32 ∨ (Rect.block (s := S2x16x2048x2048) S1x1x512x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512x64.size a ≤ S2x16x2048x64.size a
  hwx3_4 : ∀ i : grid3.Coords, EltTy.bits .bf16 = 32 ∨ (Rect.block (s := S2x16x2048x64) S1x1x512x64.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x512x2048.size a ≤ S2x16x2048x2048.size a
  hwx3_5 : ∀ i : grid3.Coords, EltTy.bits .f32 = 32 ∨ (Rect.block (s := S2x16x2048x2048) S1x1x512x2048.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x512x2048.size a ≤ S2x16x2048x2048.size a
  hwx3_6 : ∀ i : grid3.Coords, EltTy.bits .f32 = 32 ∨ (Rect.block (s := S2x16x2048x2048) S1x1x512x2048.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1x2048x64.size a ≤ S2x16x2048x64.size a
  hwx4_0 : ∀ i : grid4.Coords, EltTy.bits .bf16 = 32 ∨ (Rect.block (s := S2x16x2048x64) S1x1x2048x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x1024.size a ≤ S1024x1024.size a
  hwx4_1 : ∀ i : grid4.Coords, EltTy.bits .bf16 = 32 ∨ (Rect.block (s := S1024x1024) S64x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048x1024.size a ≤ S2x2048x1024.size a
  hwx4_2 : ∀ i : grid4.Coords, EltTy.bits .f32 = 32 ∨ (Rect.block (s := S2x2048x1024) S1x2048x1024.size (cc4_transform_2 i) (hinb4_2 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1x2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1x2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x1x512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v8_0) S1x1x512x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v8_1) S1x1x512x2048.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v8_2) S1x1x512x2048.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v8_0) S1x1x2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S64x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9) S1x2048x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S2x16x2048x2048 : Shape := ⟨4, ![2, 16, 2048, 2048]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x16x2048x2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S_, .f32⟩
  | .hbm, ⟨25, _⟩ => ⟨S2x16x2048, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .f32⟩
  | .hbm, ⟨36, _⟩ => ⟨S2x16x2048x64, .f32⟩
  | .hbm, ⟨37, _⟩ => ⟨S2x2048x16x64, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Multi-head attention with an additive score bias, as functions on index tuples over the extended reals.

  Inputs: three activations X[b, s, m] (2 × 2048 × 1024), three projection matrices W[e, m] (1024 × 1024, rows are
  output features), a bias P[b, h, i, j] (2 × 16 × 2048 × 2048) and an output matrix WO[n, e].  Feature e of a projected
  activation belongs to head h = e / 64 at lane d = e % 64, so e = h·64 + d (`hd h d`).

    proj X W (b, h, s, d)   = ∑ₘ X(b, s, m) · W(h·64 + d, m)                   a projection, split by heads
    scores q k P (b,h,i,j)  = (∑_d q(b,h,i,d) · k(b,h,j,d)) · (1/8) + P(b,h,i,j)  scaled dot products plus the bias
    attn s (b, h, i, j)     = exp(s(b,h,i,j) − maxⱼ s(b,h,i,·)) / ∑ⱼ' exp(s(b,h,i,j') − maxⱼ s(b,h,i,·))
    ctx a v (b, h, i, d)    = ∑ⱼ a(b,h,i,j) · v(b,h,j,d)
    out c WO (b, s, n)      = ∑ₕ ∑_d c(b,h,s,d) · WO(n, h·64 + d)               heads merged, then projected

  The row maximum is the fold of `max` from −∞ (the value of the word 0xFF800000); 1/8 is the value of the word
  0x3E000000.  Both are kept as words: the same word stands on both sides of every equation below.
-/
import Idealize.ShloMosaic.PureOps.Ideal
import Idealize.ShloMosaic.Lib.ValueIdx

noncomputable section

namespace Cert.Attn

open Idealize.ShloMosaic Idealize.ShloMosaic.ValueIdx

/-- An activation or the output: [batch, position, feature]. -/
abbrev Sx : Shape := ⟨3, ![2, 2048, 1024]⟩
/-- A square weight matrix. -/
abbrev Sw : Shape := ⟨2, ![1024, 1024]⟩
/-- A head-major activation: [batch, head, position, lane]. -/
abbrev Sh : Shape := ⟨4, ![2, 16, 2048, 64]⟩
/-- Scores and attention weights: [batch, head, query, key]. -/
abbrev Ss : Shape := ⟨4, ![2, 16, 2048, 2048]⟩

/-- Feature h·64 + d: lane d of head h. -/
def hd (h : Fin 16) (d : Fin 64) : Fin 1024 := ⟨h.val * 64 + d.val, by omega⟩

theorem hd_val (h : Fin 16) (d : Fin 64) : (hd h d).val = h.val * 64 + d.val := rfl

/-- The scale 1/8 = 64^(-1/2), as the value of its f32 word. -/
abbrev c8 : EReal := Ideal.ofBits .f32 0x3E000000#32
/-- −∞, as the value of its f32 word: where a running maximum starts. -/
abbrev ninf : EReal := Ideal.ofBits .f32 0xFF800000#32

def projAt (X : Sx.Idx → EReal) (W : Sw.Idx → EReal) (b : Fin 2) (h : Fin 16) (s : Fin 2048) (d : Fin 64) : EReal :=
  ∑ k : Fin 1024, X (ix3 b s k) * W (ix2 (hd h d) k)

/-- A projection split by heads. -/
def proj (X : Sx.Idx → EReal) (W : Sw.Idx → EReal) : Sh.Idx → EReal :=
  fun i => projAt X W (i 0) (i 1) (i 2) (i 3)

def scoresAt (q k : Sh.Idx → EReal) (P : Ss.Idx → EReal) (b : Fin 2) (h : Fin 16) (i j : Fin 2048) : EReal :=
  (∑ d : Fin 64, q (ix4 b h i d) * k (ix4 b h j d)) * c8 + P (ix4 b h i j)

/-- Scaled dot products of queries and keys, plus the bias. -/
def scores (q k : Sh.Idx → EReal) (P : Ss.Idx → EReal) : Ss.Idx → EReal :=
  fun i => scoresAt q k P (i 0) (i 1) (i 2) (i 3)

/-- The maximum of a row of scores, folded from −∞. -/
def rowmax (s : Ss.Idx → EReal) (b : Fin 2) (h : Fin 16) (i : Fin 2048) : EReal :=
  (Finset.univ : Finset (Fin 2048)).fold max ninf (fun j => s (ix4 b h i j))

/-- The exponential of a score less its row's maximum. -/
def ex (s : Ss.Idx → EReal) (b : Fin 2) (h : Fin 16) (i j : Fin 2048) : EReal :=
  Ideal.exp (s (ix4 b h i j) - rowmax s b h i)

def attnAt (s : Ss.Idx → EReal) (b : Fin 2) (h : Fin 16) (i j : Fin 2048) : EReal :=
  Ideal.div (ex s b h i j) (∑ j' : Fin 2048, ex s b h i j')

/-- The softmax of each row of scores. -/
def attn (s : Ss.Idx → EReal) : Ss.Idx → EReal :=
  fun i => attnAt s (i 0) (i 1) (i 2) (i 3)

def ctxAt (a : Ss.Idx → EReal) (v : Sh.Idx → EReal) (b : Fin 2) (h : Fin 16) (i : Fin 2048) (d : Fin 64) : EReal :=
  ∑ j : Fin 2048, a (ix4 b h i j) * v (ix4 b h j d)

/-- Attention-weighted values. -/
def ctx (a : Ss.Idx → EReal) (v : Sh.Idx → EReal) : Sh.Idx → EReal :=
  fun i => ctxAt a v (i 0) (i 1) (i 2) (i 3)

def outAt (c : Sh.Idx → EReal) (WO : Sw.Idx → EReal) (b : Fin 2) (s : Fin 2048) (n : Fin 1024) : EReal :=
  ∑ h : Fin 16, ∑ d : Fin 64, c (ix4 b h s d) * WO (ix2 n (hd h d))

/-- The heads merged and projected: output feature n reads row n of WO. -/
def out (c : Sh.Idx → EReal) (WO : Sw.Idx → EReal) : Sx.Idx → EReal :=
  fun i => outAt c WO (i 0) (i 1) (i 2)

def outTAt (c : Sh.Idx → EReal) (WT : Sw.Idx → EReal) (b : Fin 2) (s : Fin 2048) (n : Fin 1024) : EReal :=
  ∑ h : Fin 16, ∑ d : Fin 64, c (ix4 b h s d) * WT (ix2 (hd h d) n)

/-- The same against the TRANSPOSED output matrix WT[e, n] = WO[n, e]: output feature n reads column n of WT. -/
def outT (c : Sh.Idx → EReal) (WT : Sw.Idx → EReal) : Sx.Idx → EReal :=
  fun i => outTAt c WT (i 0) (i 1) (i 2)

theorem proj_ix (X : Sx.Idx → EReal) (W : Sw.Idx → EReal) (b : Fin 2) (h : Fin 16) (s : Fin 2048) (d : Fin 64) :
    proj X W (ix4 b h s d) = projAt X W b h s d := rfl
theorem scores_ix (q k : Sh.Idx → EReal) (P : Ss.Idx → EReal) (b : Fin 2) (h : Fin 16) (i j : Fin 2048) :
    scores q k P (ix4 b h i j) = scoresAt q k P b h i j := rfl
theorem attn_ix (s : Ss.Idx → EReal) (b : Fin 2) (h : Fin 16) (i j : Fin 2048) :
    attn s (ix4 b h i j) = attnAt s b h i j := rfl
theorem ctx_ix (a : Ss.Idx → EReal) (v : Sh.Idx → EReal) (b : Fin 2) (h : Fin 16) (i : Fin 2048) (d : Fin 64) :
    ctx a v (ix4 b h i d) = ctxAt a v b h i d := rfl
theorem out_ix (c : Sh.Idx → EReal) (WO : Sw.Idx → EReal) (b : Fin 2) (s : Fin 2048) (n : Fin 1024) :
    out c WO (ix3 b s n) = outAt c WO b s n := rfl
theorem outT_ix (c : Sh.Idx → EReal) (WT : Sw.Idx → EReal) (b : Fin 2) (s : Fin 2048) (n : Fin 1024) :
    outT c WT (ix3 b s n) = outTAt c WT b s n := rfl

/-- Against a transposed matrix the two forms agree. -/
theorem outT_eq_out (c : Sh.Idx → EReal) (WT WO : Sw.Idx → EReal)
    (hT : ∀ (e n : Fin 1024), WT (ix2 e n) = WO (ix2 n e)) : outT c WT = out c WO := by
  funext i
  show outTAt c WT (i 0) (i 1) (i 2) = outAt c WO (i 0) (i 1) (i 2)
  unfold outTAt outAt
  exact Finset.sum_congr rfl fun h _ => Finset.sum_congr rfl fun d _ =>
    congrArg (c (ix4 (i 0) h (i 1) d) * ·) (hT (hd h d) (i 2))

end Cert.Attn

end
-- ==== Proof.KHost.lean ====
/-
  The host operations before the first region: the three projection matrices and the transposed output matrix are
  converted to a narrower float format.  At the exact values a change of format is the identity, so at the first
  region's entry each converted matrix IS the launched matrix, the transposed one with its two coordinates
  exchanged; and no host operation writes an argument.
-/
import proofs.«131576_j2379411882045_2_alg».proof.Proof.Gen.KernelIdeal.Frame
import proofs.«131576_j2379411882045_2_alg».proof.Proof.Spec
import Idealize.ShloMosaic.Lib.ValueLayout
import Idealize.ShloMosaic.Lib.StableHlo.Run

noncomputable section

namespace Cert.Attn.KHost
open Idealize.ShloMosaic Idealize.ShloMosaic.TcCoe Idealize.SL.Sem Idealize.ShloMosaic.ValueIdx
open Cert.KernelIdeal Cert.KernelIdeal.Gen
open Idealize.ShloMosaic.StableHlo

variable (m : (ℓ : Loc nD τ sig) → Buf (Elt Ideal) ℓ) (ρ : Dev nD → PrngReg)

/-- The converted query-projection matrix is the launched one. -/
theorem W1_v0 (c : Dev nD) :
    (W1 (F := Ideal) m ρ c (Proc.devRef .tc main_v0) : Cert.Attn.Sw.Idx → EReal) = m ((c : Thread nD τ).loc main_arg4) := by
  show StableHlo.after hostOps0 (W0 m ρ c) (Proc.devRef .tc main_v0) = _
  after_results
  rfl

/-- The converted key-projection matrix is the launched one. -/
theorem W1_v1 (c : Dev nD) :
    (W1 (F := Ideal) m ρ c (Proc.devRef .tc main_v1) : Cert.Attn.Sw.Idx → EReal) = m ((c : Thread nD τ).loc main_arg5) := by
  show StableHlo.after hostOps0 (W0 m ρ c) (Proc.devRef .tc main_v1) = _
  after_results
  rfl

/-- The converted value-projection matrix is the launched one. -/
theorem W1_v2 (c : Dev nD) :
    (W1 (F := Ideal) m ρ c (Proc.devRef .tc main_v2) : Cert.Attn.Sw.Idx → EReal) = m ((c : Thread nD τ).loc main_arg6) := by
  show StableHlo.after hostOps0 (W0 m ρ c) (Proc.devRef .tc main_v2) = _
  after_results
  rfl

/-- The converted transpose of the output matrix: entry (e, n) is the launched matrix at (n, e). -/
theorem W1_v4 (c : Dev nD) (e n : Fin 1024) :
    (W1 (F := Ideal) m ρ c (Proc.devRef .tc main_v4) : Cert.Attn.Sw.Idx → EReal) (ix2 e n)
      = (m ((c : Thread nD τ).loc main_arg7) : Cert.Attn.Sw.Idx → EReal) (ix2 n e) := by
  show StableHlo.after hostOps0 (W0 m ρ c) (Proc.devRef .tc main_v4) (ix2 e n) = _
  after_results
  exact transpose_ix2_apply _ _ e n

/-- No host operation writes an argument. -/
theorem W1_arg0 (c : Dev nD) : W1 (F := Ideal) m ρ c (Proc.devRef .tc main_arg0) = m ((c : Thread nD τ).loc main_arg0) := by
  show StableHlo.after hostOps0 (W0 m ρ c) (Proc.devRef .tc main_arg0) = _
  after_results
theorem W1_arg1 (c : Dev nD) : W1 (F := Ideal) m ρ c (Proc.devRef .tc main_arg1) = m ((c : Thread nD τ).loc main_arg1) := by
  show StableHlo.after hostOps0 (W0 m ρ c) (Proc.devRef .tc main_arg1) = _
  after_results
theorem W1_arg2 (c : Dev nD) : W1 (F := Ideal) m ρ c (Proc.devRef .tc main_arg2) = m ((c : Thread nD τ).loc main_arg2) := by
  show StableHlo.after hostOps0 (W0 m ρ c) (Proc.devRef .tc main_arg2) = _
  after_results
theorem W1_arg3 (c : Dev nD) : W1 (F := Ideal) m ρ c (Proc.devRef .tc main_arg3) = m ((c : Thread nD τ).loc main_arg3) := by
  show StableHlo.after hostOps0 (W0 m ρ c) (Proc.devRef .tc main_arg3) = _
  after_results

end Cert.Attn.KHost

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KProjPay.lean ====
import proofs.«131576_j2379411882045_2_alg».proof.Proof.Gen.KernelIdeal.Skeleton
import proofs.«131576_j2379411882045_2_alg».proof.Proof.LibPlainDot
import proofs.«131576_j2379411882045_2_alg».proof.Proof.Spec

/-
  The body of a head-projection kernel read at an entry.

  The body takes a [1, 2048, 1024] block X of an activation and a [64, 1024] block W of a projection matrix (64 rows
  of output features), drops the unit axis of X, transposes W to [1024, 64], multiplies into a zero accumulator, and
  gives the [2048, 64] product two leading unit axes. At the ideal values the two roundings are the identity, so the
  entry (0, 0, s, d) of the result is ∑ₖ X(0, s, k) · W(d, k).
-/

noncomputable section

namespace Cert.Attn.KProj
open Idealize.ShloMosaic Idealize.ShloMosaic.ValueIdx
open Cert.KernelIdeal Cert.KernelIdeal.Gen

/-- Zero offsets, however many axes. -/
theorem zero_offsets2 : (![0, 0] : Fin 2 → Nat) = fun _ => 0 := funext fun a => by fin_cases a <;> rfl
theorem zero_offsets3 : (![0, 0, 0] : Fin 3 → Nat) = fun _ => 0 := funext fun a => by fin_cases a <;> rfl
theorem zero_offsets4 : (![0, 0, 0, 0] : Fin 4 → Nat) = fun _ => 0 := funext fun a => by fin_cases a <;> rfl

/-- The product contracts the left operand's columns against the right operand's rows, with no batch axis: the plain
    product of a 2048 × 1024 by a 1024 × 64 matrix. -/
theorem dot_eq_plain : dot_S2048x1024_S1024x64_S2048x64_1_0_0_1_n_n = DotDims.plain 2048 1024 64 := rfl

/-- Entry (0, 0, s, d) of the body's result: row s of the activation block against row d of the weight block. -/
theorem pay0_apply (x0 : Vec Ideal S1x2048x1024 .f32) (x1 : Vec Ideal S64x1024 .bf16) (s : Fin 2048) (d : Fin 64) :
    k0_pay1 x0 x1 (ix4 (0 : Fin 1) (0 : Fin 1) s d) = ∑ k : Fin 1024, x0 (ix3 (0 : Fin 1) s k) * x1 (ix2 d k) := by
  unfold k0_pay1
  refine (shapeCast_apply _ _ (ix4 (0 : Fin 1) (0 : Fin 1) s d) (ix2 s d) ?_).trans ?_
  · rw [Shape.rowMajor_val_two, Shape.rowMajor_val_four]
    show s.val * 64 + d.val = (((0 : Fin 1).val * 1 + (0 : Fin 1).val) * 2048 + s.val) * 64 + d.val
    simp
  refine Eq.trans (truncf_apply (ψ := .bf16) (φ := .f32) _ bitsLt_bf16_f32 (ix2 s d)) ?_
  rw [dot_eq_plain]
  refine (Cert.PlainDot.matmul_zero_plain_apply none _ _ s d).trans ?_
  refine Finset.sum_congr rfl fun k _ => ?_
  congr 1
  · refine Eq.trans (truncf_apply (ψ := .bf16) (φ := .f32) _ bitsLt_bf16_f32 (ix2 s k)) ?_
    refine shapeCast_apply _ _ (ix2 s k) (ix3 (0 : Fin 1) s k) ?_
    rw [Shape.rowMajor_val_two, Shape.rowMajor_val_three]
    show ((0 : Fin 1).val * 2048 + s.val) * 1024 + k.val = s.val * 1024 + k.val
    simp
  · refine (transpose_apply _ _ _ (ix2 k d) (ix2 d k) fun b => ?_).trans ?_
    · match b with
      | ⟨0, _⟩ => rfl
      | ⟨1, _⟩ => rfl
    · rw [shapeCast_self]

/-- The second and third projection kernels have the same body. -/
theorem pay1_apply (x0 : Vec Ideal S1x2048x1024 .f32) (x1 : Vec Ideal S64x1024 .bf16) (s : Fin 2048) (d : Fin 64) :
    k1_pay1 x0 x1 (ix4 (0 : Fin 1) (0 : Fin 1) s d) = ∑ k : Fin 1024, x0 (ix3 (0 : Fin 1) s k) * x1 (ix2 d k) :=
  pay0_apply x0 x1 s d

theorem pay2_apply (x0 : Vec Ideal S1x2048x1024 .f32) (x1 : Vec Ideal S64x1024 .bf16) (s : Fin 2048) (d : Fin 64) :
    k2_pay1 x0 x1 (ix4 (0 : Fin 1) (0 : Fin 1) s d) = ∑ k : Fin 1024, x0 (ix3 (0 : Fin 1) s k) * x1 (ix2 d k) :=
  pay0_apply x0 x1 s d

end Cert.Attn.KProj

end
-- ==== Proof.KProj0.lean ====
import proofs.«131576_j2379411882045_2_alg».proof.Proof.Gen.KernelIdeal.Frame
import proofs.«131576_j2379411882045_2_alg».proof.Proof.Spec
import proofs.«131576_j2379411882045_2_alg».proof.Proof.KProjPay
import Idealize.ShloMosaic.Lib.Pipeline.Value

/-
  The first head projection, from its blocks to its array.

  The grid is (batch b, head h). At the point (b, h) the kernel reads the block (b, 0, 0) of the activation
  [2, 2048, 1024] (all of batch member b), the block (h, 0) of the projection matrix [1024, 1024] (its rows
  h·64 … h·64 + 63) and writes the block (b, h, 0, 0) of the head-major result [2, 16, 2048, 64]. So what the point
  writes is the block of the head-split projection, and the 32 blocks tile the result.
-/

set_option maxRecDepth 16384

noncomputable section

namespace Cert.Attn.KProj
open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps over the grid: the activation's block follows the result's batch index, the matrix's block the
    result's head index, every other block index is zero. -/
theorem block_indices0 : ∀ t : Fin cfg0.N,
    win0_0.index t (0 : Fin 3) = win0_2.index t (0 : Fin 4) ∧ win0_0.index t (1 : Fin 3) = 0 ∧ win0_0.index t (2 : Fin 3) = 0
    ∧ win0_1.index t (0 : Fin 2) = win0_2.index t (1 : Fin 4) ∧ win0_1.index t (1 : Fin 2) = 0
    ∧ win0_2.index t (2 : Fin 4) = 0 ∧ win0_2.index t (3 : Fin 4) = 0
    ∧ win0_2.index t (0 : Fin 4) < 2 ∧ win0_2.index t (1 : Fin 4) < 16 :=
  (by decide +kernel : ∀ t : Fin grid0.N, _)

/-- Every (batch, head) pair is some point's block index. -/
theorem point_of_batch_head0 : ∀ (b : Fin 2) (h : Fin 16), ∃ t : Fin cfg0.N, win0_2.index t = ![b.val, h.val, 0, 0] :=
  (by decide +kernel : ∀ (b : Fin 2) (h : Fin 16), ∃ t : Fin grid0.N, win0_2.index t = ![b.val, h.val, 0, 0])

/-- The activation's block at a point is batch member b of the activation, where b is the block's batch index. -/
theorem activation_row0 (c : Dev nD) (t : Fin cfg0.N) (b : Fin 2) (s : Fin 2048) (k : Fin 1024)
    (e0 : win0_0.index t (0 : Fin 3) = b.val) (e1 : win0_0.index t (1 : Fin 3) = 0) (e2 : win0_0.index t (2 : Fin 3) = 0) :
    (iblk0 V c 0 t : Vec Ideal S1x2048x1024 .f32) (ix3 (0 : Fin 1) s k)
      = (V c main_arg0 : S2x2048x1024.Idx → EReal) (ix3 b s k) := by
  unfold iblk0
  rw [View.read_apply]
  show V c main_arg0 _ = V c main_arg0 _
  congr 1
  funext a
  apply Fin.ext
  match a with
  | ⟨0, _⟩ => show win0_0.index t (0 : Fin 3) * 1 + 1 * (0 : Fin 1).val = b.val; rw [e0]; simp
  | ⟨1, _⟩ => show win0_0.index t (1 : Fin 3) * 2048 + 1 * s.val = s.val; rw [e1]; omega
  | ⟨2, _⟩ => show win0_0.index t (2 : Fin 3) * 1024 + 1 * k.val = k.val; rw [e2]; omega

/-- The matrix's block at a point is the 64 rows of head h, where h is the block's row index. -/
theorem weight_row0 (c : Dev nD) (t : Fin cfg0.N) (h : Fin 16) (d : Fin 64) (k : Fin 1024)
    (e0 : win0_1.index t (0 : Fin 2) = h.val) (e1 : win0_1.index t (1 : Fin 2) = 0) :
    (iblk0 V c 1 t : Vec Ideal S64x1024 .bf16) (ix2 d k)
      = (V c main_v0 : S1024x1024.Idx → EReal) (ix2 (hd h d) k) := by
  unfold iblk0
  rw [View.read_apply]
  show V c main_v0 _ = V c main_v0 _
  congr 1
  funext a
  apply Fin.ext
  match a with
  | ⟨0, _⟩ => show win0_1.index t (0 : Fin 2) * 64 + 1 * d.val = h.val * 64 + d.val; rw [e0]; omega
  | ⟨1, _⟩ => show win0_1.index t (1 : Fin 2) * 1024 + 1 * k.val = k.val; rw [e1]; omega

/-- One entry of what a point writes: the body's result at the entry (0, 0, s, d) of its block is the head-split
    projection at (b, h, s, d), when the point's activation block is batch member b and its matrix block the rows of
    head h. -/
theorem projected_entry0 (X : S2x2048x1024.Idx → EReal) (W : S1024x1024.Idx → EReal)
    (x0 : Vec Ideal S1x2048x1024 .f32) (x1 : Vec Ideal S64x1024 .bf16) (b : Fin 2) (h : Fin 16)
    (h0 : ∀ (s : Fin 2048) (k : Fin 1024), x0 (ix3 (0 : Fin 1) s k) = X (ix3 b s k))
    (h1 : ∀ (d : Fin 64) (k : Fin 1024), x1 (ix2 d k) = W (ix2 (hd h d) k))
    (j : S1x1x2048x64.Idx) (i : S2x16x2048x64.Idx)
    (hi0 : (i 0).val = b.val) (hi1 : (i 1).val = h.val) (hi2 : (i 2).val = (j 2).val) (hi3 : (i 3).val = (j 3).val) :
    k0_pay1 x0 x1 j = Cert.Attn.proj X W i := by
  obtain ⟨u, v, s, d, rfl⟩ : ∃ (u v : Fin 1) (s : Fin 2048) (d : Fin 64), j = ix4 u v s d := ⟨j 0, j 1, j 2, j 3, eq_ix4 j⟩
  obtain rfl : u = 0 := Subsingleton.elim _ _
  obtain rfl : v = 0 := Subsingleton.elim _ _
  have hi : i = ix4 b h s d := by
    funext a
    apply Fin.ext
    match a with
    | ⟨0, _⟩ => exact hi0
    | ⟨1, _⟩ => exact hi1
    | ⟨2, _⟩ => exact hi2
    | ⟨3, _⟩ => exact hi3
  rw [hi, pay0_apply, Cert.Attn.proj_ix]
  unfold Cert.Attn.projAt
  exact Finset.sum_congr rfl fun k _ => by rw [h0, h1]

/-- What the point t writes back is its block of the head-split projection of the region's entry contents. -/
theorem written_back0 (c : Dev nD) (t : Fin cfg0.N) :
    (dat0 (F := Ideal) V c).flushed 2 t
      = ((cfg0.win 2).blk t).view.read (Elt Ideal) (Cert.Attn.proj (V c main_arg0) (V c main_v0)) := by
  show (cfg0.win 2).cut (grid0.coords t) ((dat0 (F := Ideal) V c).after 2 t) = _
  rw [after0_2]
  unfold out0_2
  rw [View.canon_unit_zero zero_offsets4]
  simp only [View.ld_unit_zero (S := S1x2048x1024) zero_offsets3, View.ld_unit_zero (S := S64x1024) zero_offsets2]
  obtain ⟨e0, e1, e2, e3, e4, e5, e6, e7, e8⟩ := block_indices0 t
  funext j
  show k0_pay1 (iblk0 V c 0 t) (iblk0 V c 1 t) j
    = Cert.Attn.proj (V c main_arg0) (V c main_v0) (((cfg0.win 2).blk t).view.emb j)
  refine projected_entry0 (V c main_arg0) (V c main_v0) (iblk0 V c 0 t) (iblk0 V c 1 t)
    ⟨win0_2.index t (0 : Fin 4), e7⟩ ⟨win0_2.index t (1 : Fin 4), e8⟩
    (fun s k => activation_row0 V c t _ s k e0 e1 e2) (fun d k => weight_row0 V c t _ d k e3 e4) j _ ?_ ?_ ?_ ?_
  · show win0_2.index t (0 : Fin 4) * 1 + 1 * (j 0).val = win0_2.index t (0 : Fin 4)
    have hj : (j 0).val < 1 := (j 0).isLt
    omega
  · show win0_2.index t (1 : Fin 4) * 1 + 1 * (j 1).val = win0_2.index t (1 : Fin 4)
    have hj : (j 1).val < 1 := (j 1).isLt
    omega
  · show win0_2.index t (2 : Fin 4) * 2048 + 1 * (j 2).val = (j 2).val
    rw [e5]; omega
  · show win0_2.index t (3 : Fin 4) * 64 + 1 * (j 3).val = (j 3).val
    rw [e6]; omega

/-- An index of the result is in the block of point t iff each coordinate is in the block's range on its axis. -/
theorem mem_head_block0 (t : Fin cfg0.N) (i : S2x16x2048x64.Idx) :
    i ∈ ((cfg0.win 2).blk t).view.set ↔ ∀ a : Fin 4, win0_2.index t a * S1x1x2048x64.size a ≤ (i a).val
      ∧ (i a).val < win0_2.index t a * S1x1x2048x64.size a + S1x1x2048x64.size a := by
  show i ∈ ((View.whole main_v5).slice (win0_2.rect t)).set ↔ _
  rw [View.set_slice_whole, Rect.mem_set_unit]
  exact Iff.rfl

/-- The 32 blocks tile the result: the index (b, h, s, d) lies in the block of the point with block index (b, h, 0, 0). -/
theorem every_entry_written0 (i : S2x16x2048x64.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := point_of_batch_head0 ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_head_block0]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 2048 ≤ (i 2).val ∧ (i 2).val < win0_2.index t (2 : Fin 4) * 2048 + 2048; omega
  | ⟨3, _⟩ => show win0_2.index t (3 : Fin 4) * 64 ≤ (i 3).val ∧ (i 3).val < win0_2.index t (3 : Fin 4) * 64 + 64; omega

/-- The result array after the region is the head-split projection of the region's entry contents. -/
theorem region0 (c : Dev nD) :
    (dat0 (F := Ideal) V c).arrAt 2 cfg0.N = Cert.Attn.proj (V c main_arg0) (V c main_v0) :=
  (dat0 (F := Ideal) V c).arrAt_eq_of_cover 2 (Cert.Attn.proj (V c main_arg0) (V c main_v0))
    (fun t _ => written_back0 V c t) every_entry_written0

end Cert.Attn.KProj

end
-- ==== Proof.KProj1.lean ====
import proofs.«131576_j2379411882045_2_alg».proof.Proof.Gen.KernelIdeal.Frame
import proofs.«131576_j2379411882045_2_alg».proof.Proof.Spec
import proofs.«131576_j2379411882045_2_alg».proof.Proof.KProjPay
import Idealize.ShloMosaic.Lib.Pipeline.Value

/-
  The second head projection, from its blocks to its array.

  The grid is (batch b, head h). At the point (b, h) the kernel reads the block (b, 0, 0) of the activation
  [2, 2048, 1024] (all of batch member b), the block (h, 0) of the projection matrix [1024, 1024] (its rows
  h·64 … h·64 + 63) and writes the block (b, h, 0, 0) of the head-major result [2, 16, 2048, 64]. So what the point
  writes is the block of the head-split projection, and the 32 blocks tile the result.
-/

set_option maxRecDepth 16384

noncomputable section

namespace Cert.Attn.KProj
open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps over the grid: the activation's block follows the result's batch index, the matrix's block the
    result's head index, every other block index is zero. -/
theorem block_indices1 : ∀ t : Fin cfg1.N,
    win1_0.index t (0 : Fin 3) = win1_2.index t (0 : Fin 4) ∧ win1_0.index t (1 : Fin 3) = 0 ∧ win1_0.index t (2 : Fin 3) = 0
    ∧ win1_1.index t (0 : Fin 2) = win1_2.index t (1 : Fin 4) ∧ win1_1.index t (1 : Fin 2) = 0
    ∧ win1_2.index t (2 : Fin 4) = 0 ∧ win1_2.index t (3 : Fin 4) = 0
    ∧ win1_2.index t (0 : Fin 4) < 2 ∧ win1_2.index t (1 : Fin 4) < 16 :=
  (by decide +kernel : ∀ t : Fin grid1.N, _)

/-- Every (batch, head) pair is some point's block index. -/
theorem point_of_batch_head1 : ∀ (b : Fin 2) (h : Fin 16), ∃ t : Fin cfg1.N, win1_2.index t = ![b.val, h.val, 0, 0] :=
  (by decide +kernel : ∀ (b : Fin 2) (h : Fin 16), ∃ t : Fin grid1.N, win1_2.index t = ![b.val, h.val, 0, 0])

/-- The activation's block at a point is batch member b of the activation, where b is the block's batch index. -/
theorem activation_row1 (c : Dev nD) (t : Fin cfg1.N) (b : Fin 2) (s : Fin 2048) (k : Fin 1024)
    (e0 : win1_0.index t (0 : Fin 3) = b.val) (e1 : win1_0.index t (1 : Fin 3) = 0) (e2 : win1_0.index t (2 : Fin 3) = 0) :
    (iblk1 V c 0 t : Vec Ideal S1x2048x1024 .f32) (ix3 (0 : Fin 1) s k)
      = (V c main_arg1 : S2x2048x1024.Idx → EReal) (ix3 b s k) := by
  unfold iblk1
  rw [View.read_apply]
  show V c main_arg1 _ = V c main_arg1 _
  congr 1
  funext a
  apply Fin.ext
  match a with
  | ⟨0, _⟩ => show win1_0.index t (0 : Fin 3) * 1 + 1 * (0 : Fin 1).val = b.val; rw [e0]; simp
  | ⟨1, _⟩ => show win1_0.index t (1 : Fin 3) * 2048 + 1 * s.val = s.val; rw [e1]; omega
  | ⟨2, _⟩ => show win1_0.index t (2 : Fin 3) * 1024 + 1 * k.val = k.val; rw [e2]; omega

/-- The matrix's block at a point is the 64 rows of head h, where h is the block's row index. -/
theorem weight_row1 (c : Dev nD) (t : Fin cfg1.N) (h : Fin 16) (d : Fin 64) (k : Fin 1024)
    (e0 : win1_1.index t (0 : Fin 2) = h.val) (e1 : win1_1.index t (1 : Fin 2) = 0) :
    (iblk1 V c 1 t : Vec Ideal S64x1024 .bf16) (ix2 d k)
      = (V c main_v1 : S1024x1024.Idx → EReal) (ix2 (hd h d) k) := by
  unfold iblk1
  rw [View.read_apply]
  show V c main_v1 _ = V c main_v1 _
  congr 1
  funext a
  apply Fin.ext
  match a with
  | ⟨0, _⟩ => show win1_1.index t (0 : Fin 2) * 64 + 1 * d.val = h.val * 64 + d.val; rw [e0]; omega
  | ⟨1, _⟩ => show win1_1.index t (1 : Fin 2) * 1024 + 1 * k.val = k.val; rw [e1]; omega

/-- One entry of what a point writes: the body's result at the entry (0, 0, s, d) of its block is the head-split
    projection at (b, h, s, d), when the point's activation block is batch member b and its matrix block the rows of
    head h. -/
theorem projected_entry1 (X : S2x2048x1024.Idx → EReal) (W : S1024x1024.Idx → EReal)
    (x0 : Vec Ideal S1x2048x1024 .f32) (x1 : Vec Ideal S64x1024 .bf16) (b : Fin 2) (h : Fin 16)
    (h0 : ∀ (s : Fin 2048) (k : Fin 1024), x0 (ix3 (0 : Fin 1) s k) = X (ix3 b s k))
    (h1 : ∀ (d : Fin 64) (k : Fin 1024), x1 (ix2 d k) = W (ix2 (hd h d) k))
    (j : S1x1x2048x64.Idx) (i : S2x16x2048x64.Idx)
    (hi0 : (i 0).val = b.val) (hi1 : (i 1).val = h.val) (hi2 : (i 2).val = (j 2).val) (hi3 : (i 3).val = (j 3).val) :
    k1_pay1 x0 x1 j = Cert.Attn.proj X W i := by
  obtain ⟨u, v, s, d, rfl⟩ : ∃ (u v : Fin 1) (s : Fin 2048) (d : Fin 64), j = ix4 u v s d := ⟨j 0, j 1, j 2, j 3, eq_ix4 j⟩
  obtain rfl : u = 0 := Subsingleton.elim _ _
  obtain rfl : v = 0 := Subsingleton.elim _ _
  have hi : i = ix4 b h s d := by
    funext a
    apply Fin.ext
    match a with
    | ⟨0, _⟩ => exact hi0
    | ⟨1, _⟩ => exact hi1
    | ⟨2, _⟩ => exact hi2
    | ⟨3, _⟩ => exact hi3
  rw [hi, pay1_apply, Cert.Attn.proj_ix]
  unfold Cert.Attn.projAt
  exact Finset.sum_congr rfl fun k _ => by rw [h0, h1]

/-- What the point t writes back is its block of the head-split projection of the region's entry contents. -/
theorem written_back1 (c : Dev nD) (t : Fin cfg1.N) :
    (dat1 (F := Ideal) V c).flushed 2 t
      = ((cfg1.win 2).blk t).view.read (Elt Ideal) (Cert.Attn.proj (V c main_arg1) (V c main_v1)) := by
  show (cfg1.win 2).cut (grid1.coords t) ((dat1 (F := Ideal) V c).after 2 t) = _
  rw [after1_2]
  unfold out1_2
  rw [View.canon_unit_zero zero_offsets4]
  simp only [View.ld_unit_zero (S := S1x2048x1024) zero_offsets3, View.ld_unit_zero (S := S64x1024) zero_offsets2]
  obtain ⟨e0, e1, e2, e3, e4, e5, e6, e7, e8⟩ := block_indices1 t
  funext j
  show k1_pay1 (iblk1 V c 0 t) (iblk1 V c 1 t) j
    = Cert.Attn.proj (V c main_arg1) (V c main_v1) (((cfg1.win 2).blk t).view.emb j)
  refine projected_entry1 (V c main_arg1) (V c main_v1) (iblk1 V c 0 t) (iblk1 V c 1 t)
    ⟨win1_2.index t (0 : Fin 4), e7⟩ ⟨win1_2.index t (1 : Fin 4), e8⟩
    (fun s k => activation_row1 V c t _ s k e0 e1 e2) (fun d k => weight_row1 V c t _ d k e3 e4) j _ ?_ ?_ ?_ ?_
  · show win1_2.index t (0 : Fin 4) * 1 + 1 * (j 0).val = win1_2.index t (0 : Fin 4)
    have hj : (j 0).val < 1 := (j 0).isLt
    omega
  · show win1_2.index t (1 : Fin 4) * 1 + 1 * (j 1).val = win1_2.index t (1 : Fin 4)
    have hj : (j 1).val < 1 := (j 1).isLt
    omega
  · show win1_2.index t (2 : Fin 4) * 2048 + 1 * (j 2).val = (j 2).val
    rw [e5]; omega
  · show win1_2.index t (3 : Fin 4) * 64 + 1 * (j 3).val = (j 3).val
    rw [e6]; omega

/-- An index of the result is in the block of point t iff each coordinate is in the block's range on its axis. -/
theorem mem_head_block1 (t : Fin cfg1.N) (i : S2x16x2048x64.Idx) :
    i ∈ ((cfg1.win 2).blk t).view.set ↔ ∀ a : Fin 4, win1_2.index t a * S1x1x2048x64.size a ≤ (i a).val
      ∧ (i a).val < win1_2.index t a * S1x1x2048x64.size a + S1x1x2048x64.size a := by
  show i ∈ ((View.whole main_v6).slice (win1_2.rect t)).set ↔ _
  rw [View.set_slice_whole, Rect.mem_set_unit]
  exact Iff.rfl

/-- The 32 blocks tile the result: the index (b, h, s, d) lies in the block of the point with block index (b, h, 0, 0). -/
theorem every_entry_written1 (i : S2x16x2048x64.Idx) :
    ∃ t : Fin cfg1.N, (cfg1.win 2).flush t = true ∧ i ∈ ((cfg1.win 2).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := point_of_batch_head1 ⟨(i 0).val, hi0⟩ ⟨(i 1).val, hi1⟩
  have q0 : win1_2.index t (0 : Fin 4) = (i 0).val := congrFun ht 0
  have q1 : win1_2.index t (1 : Fin 4) = (i 1).val := congrFun ht 1
  have q2 : win1_2.index t (2 : Fin 4) = 0 := congrFun ht 2
  have q3 : win1_2.index t (3 : Fin 4) = 0 := congrFun ht 3
  refine ⟨t, flush1_2 t, ?_⟩
  rw [mem_head_block1]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 1 ≤ (i 1).val ∧ (i 1).val < win1_2.index t (1 : Fin 4) * 1 + 1; omega
  | ⟨2, _⟩ => show win1_2.index t (2 : Fin 4) * 2048 ≤ (i 2).val ∧ (i 2).val < win1_2.index t (2 : Fin 4) * 2048 + 2048; omega
  | ⟨3, _⟩ => show win1_2.index t (3 : Fin 4) * 64 ≤ (i 3).val ∧ (i 3).val < win1_2.index t (3 : Fin 4) * 64 + 64; omega

/-- The result array after the region is the head-split projection of the region's entry contents. -/
theorem region1 (c : Dev nD) :
    (dat1 (F := Ideal) V c).arrAt 2 cfg1.N = Cert.Attn.proj (V c main_arg1) (V c main_v1) :=
  (dat1 (F := Ideal) V c).arrAt_eq_of_cover 2 (Cert.Attn.proj (V c main_arg1) (V c main_v1))
    (fun t _ => written_back1 V c t) every_entry_written1

end Cert.Attn.KProj

end
-- ==== Proof.KProj2.lean ====
import proofs.«131576_j2379411882045_2_alg».proof.Proof.Gen.KernelIdeal.Frame
import proofs.«131576_j2379411882045_2_alg».proof.Proof.Spec
import proofs.«131576_j2379411882045_2_alg».proof.Proof.KProjPay
import Idealize.ShloMosaic.Lib.Pipeline.Value

/-
  The third head projection, from its blocks to its array.

  The grid is (batch b, head h). At the point (b, h) the kernel reads the block (b, 0, 0) of the activation
  [2, 2048, 1024] (all of batch member b), the block (h, 0) of the projection matrix [1024, 1024] (its rows
  h·64 … h·64 + 63) and writes the block (b, h, 0, 0) of the head-major result [2, 16, 2048, 64]. So what the point
  writes is the block of the head-split projection, and the 32 blocks tile the result.
-/

set_option maxRecDepth 16384

noncomputable section

namespace Cert.Attn.KProj
open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps over the grid: the activation's block follows the result's batch index, the matrix's block the
    result's head index, every other block index is zero. -/
theorem block_indices2 : ∀ t : Fin cfg2.N,
    win2_0.index t (0 : Fin 3) = win2_2.index t (0 : Fin 4) ∧ win2_0.index t (1 : Fin 3) = 0 ∧ win2_0.index t (2 : Fin 3) = 0
    ∧ win2_1.index t (0 : Fin 2) = win2_2.index t (1 : Fin 4) ∧ win2_1.index t (1 : Fin 2) = 0
    ∧ win2_2.index t (2 : Fin 4) = 0 ∧ win2_2.index t (3 : Fin 4) = 0
    ∧ win2_2.index t (0 : Fin 4) < 2 ∧ win2_2.index t (1 : Fin 4) < 16 :=
  (by decide +kernel : ∀ t : Fin grid2.N, _)

/-- Every (batch, head) pair is some point's block index. -/
theorem point_of_batch_head2 : ∀ (b : Fin 2) (h : Fin 16), ∃ t : Fin cfg2.N, win2_2.index t = ![b.val, h.val, 0, 0] :=
  (by decide +kernel : ∀ (b : Fin 2) (h : Fin 16), ∃ t : Fin grid2.N, win2_2.index t = ![b.val, h.val, 0, 0])

/-- The activation's block at a point is batch member b of the activation, where b is the block's batch index. -/
theorem activation_row2 (c : Dev nD) (t : Fin cfg2.N) (b : Fin 2) (s : Fin 2048) (k : Fin 1024)
    (e0 : win2_0.index t (0 : Fin 3) = b.val) (e1 : win2_0.index t (1 : Fin 3) = 0) (e2 : win2_0.index t (2 : Fin 3) = 0) :
    (iblk2 V c 0 t : Vec Ideal S1x2048x1024 .f32) (ix3 (0 : Fin 1) s k)
      = (V c main_arg2 : S2x2048x1024.Idx → EReal) (ix3 b s k) := by
  unfold iblk2
  rw [View.read_apply]
  show V c main_arg2 _ = V c main_arg2 _
  congr 1
  funext a
  apply Fin.ext
  match a with
  | ⟨0, _⟩ => show win2_0.index t (0 : Fin 3) * 1 + 1 * (0 : Fin 1).val = b.val; rw [e0]; simp
  | ⟨1, _⟩ => show win2_0.index t (1 : Fin 3) * 2048 + 1 * s.val = s.val; rw [e1]; omega
  | ⟨2, _⟩ => show win2_0.index t (2 : Fin 3) * 1024 + 1 * k.val = k.val; rw [e2]; omega

/-- The matrix's block at a point is the 64 rows of head h, where h is the block's row index. -/
theorem weight_row2 (c : Dev nD) (t : Fin cfg2.N) (h : Fin 16) (d : Fin 64) (k : Fin 1024)
    (e0 : win2_1.index t (0 : Fin 2) = h.val) (e1 : win2_1.index t (1 : Fin 2) = 0) :
    (iblk2 V c 1 t : Vec Ideal S64x1024 .bf16) (ix2 d k)
      = (V c main_v2 : S1024x1024.Idx → EReal) (ix2 (hd h d) k) := by
  unfold iblk2
  rw [View.read_apply]
  show V c main_v2 _ = V c main_v2 _
  congr 1
  funext a
  apply Fin.ext
  match a with
  | ⟨0, _⟩ => show win2_1.index t (0 : Fin 2) * 64 + 1 * d.val = h.val * 64 + d.val; rw [e0]; omega
  | ⟨1, _⟩ => show win2_1.index t (1 : Fin 2) * 1024 + 1 * k.val = k.val; rw [e1]; omega

/-- One entry of what a point writes: the body's result at the entry (0, 0, s, d) of its block is the head-split
    projection at (b, h, s, d), when the point's activation block is batch member b and its matrix block the rows of
    head h. -/
theorem projected_entry2 (X : S2x2048x1024.Idx → EReal) (W : S1024x1024.Idx → EReal)
    (x0 : Vec Ideal S1x2048x1024 .f32) (x1 : Vec Ideal S64x1024 .bf16) (b : Fin 2) (h : Fin 16)
    (h0 : ∀ (s : Fin 2048) (k : Fin 1024), x0 (ix3 (0 : Fin 1) s k) = X (ix3 b s k))
    (h1 : ∀ (d : Fin 64) (k : Fin 1024), x1 (ix2 d k) = W (ix2 (hd h d) k))
    (j : S1x1x2048x64.Idx) (i : S2x16x2048x64.Idx)
    (hi0 : (i 0).val = b.val) (hi1 : (i 1).val = h.val) (hi2 : (i 2).val = (j 2).val) (hi3 : (i 3).val = (j 3).val) :
    k2_pay1 x0 x1 j = Cert.Attn.proj X W i := by
  obtain ⟨u, v, s, d, rfl⟩ : ∃ (u v : Fin 1) (s : Fin 2048) (d : Fin 64), j = ix4 u v s d := ⟨j 0, j 1, j 2, j 3, eq_ix4 j⟩
  obtain rfl : u = 0 := Subsingleton.elim _ _
  obtain rfl : v = 0 := Subsingleton.elim _ _
  have hi : i = ix4 b h s d := by
    funext a
    apply Fin.ext
    match a with
    | ⟨0, _⟩ => exact hi0
    | ⟨1, _⟩ => exact hi1
    | ⟨2, _⟩ => exact hi2
    | ⟨3, _⟩ => exact hi3
  rw [hi, pay2_apply, Cert.Attn.proj_ix]
  unfold Cert.Attn.projAt
  exact Finset.sum_congr rfl fun k _ => by rw [h0, h1]

/-- What the point t writes back is its block of the head-split projection of the region's entry contents. -/
theorem written_back2 (c : Dev nD) (t : Fin cfg2.N) :
    (dat2 (F := Ideal) V c).flushed 2 t
      = ((cfg2.win 2).blk t).view.read (Elt Ideal) (Cert.Attn.proj (V c main_arg2) (V c main_v2)) := by
  show (cfg2.win 2).cut (grid2.coords t) ((dat2 (F := Ideal) V c).after 2 t) = _
  rw [after2_2]
  unfold out2_2
  rw [View.canon_unit_zero zero_offsets4]
  simp only [View.ld_unit_zero (S := S1x2048x1024) zero_offsets3, View.ld_unit_zero (S := S64x1024) zero_offsets2]
  obtain ⟨e0, e1, e2, e3, e4, e5, e6, e7, e8⟩ := block_indices2 t
  funext j
  show k2_pay1 (iblk2 V c 0 t) (iblk2 V c 1 t) j
    = Cert.Attn.proj (V c main_arg2) (V c main_v2) (((cfg2.win 2).blk t).view.emb j)
  refine projected_entry2 (V c main_arg2) (V c main_v2) (iblk2 V c 0 t) (iblk2 V c 1 t)
    ⟨win2_2.index t (0 : Fin 4), e7⟩ ⟨win2_2.index t (1 : Fin 4), e8⟩
    (fun s k => activation_row2 V c t _ s k e0 e1 e2) (fun d k => weight_row2 V c t _ d k e3 e4) j _ ?_ ?_ ?_ ?_
  · show win2_2.index t (0 : Fin 4) * 1 + 1 * (j 0).val = win2_2.index t (0 : Fin 4)
    have hj : (j 0).val < 1 := (j 0).isLt
    omega
  · show win2_2.index t (1 : Fin 4) * 1 + 1 * (j 1).val = win2_2.index t (1 : Fin 4)
    have hj : (j 1).val < 1 := (j 1).isLt
    omega
  · show win2_2.index t (2 : Fin 4) * 2048 + 1 * (j 2).val = (j 2).val
    rw [e5]; omega
  · show win2_2.index t (3 : Fin 4) * 64 + 1 * (j 3).val = (j 3).val
    rw [e6]; omega

/-- An index of the result is in the block of point t iff each coordinate is in the block's range on its axis. -/
theorem mem_head_block2 (t : Fin cfg2.N) (i : S2x16x2048x64.Idx) :
    i ∈ ((cfg2.win 2).blk t).view.set ↔ ∀ a : Fin 4, win2_2.index t a * S1x1x2048x64.size a ≤ (i a).val
      ∧ (i a).val < win2_2.index t a * S1x1x2048x64.size a + S1x1x2048x64.size a := by
  show i ∈ ((View.whole main_v7).slice (win2_2.rect t)).set ↔ _
  rw [View.set_slice_whole, Rect.mem_set_unit]
  exact Iff.rfl

/-- The 32 blocks tile the result: the index (b, h, s, d) lies in the block of the point with block index (b, h, 0, 0). -/
theorem every_entry_written2 (i : S2x16x2048x64.Idx) :
    ∃ t : Fin cfg2.N, (cfg2.win 2).flush t = true ∧ i ∈ ((cfg2.win 2).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := point_of_batch_head2 ⟨(i 0).val, hi0⟩ ⟨(i 1).val, hi1⟩
  have q0 : win2_2.index t (0 : Fin 4) = (i 0).val := congrFun ht 0
  have q1 : win2_2.index t (1 : Fin 4) = (i 1).val := congrFun ht 1
  have q2 : win2_2.index t (2 : Fin 4) = 0 := congrFun ht 2
  have q3 : win2_2.index t (3 : Fin 4) = 0 := congrFun ht 3
  refine ⟨t, flush2_2 t, ?_⟩
  rw [mem_head_block2]
  intro a
  match a with
  | ⟨0, _⟩ => show win2_2.index t (0 : Fin 4) * 1 ≤ (i 0).val ∧ (i 0).val < win2_2.index t (0 : Fin 4) * 1 + 1; omega
  | ⟨1, _⟩ => show win2_2.index t (1 : Fin 4) * 1 ≤ (i 1).val ∧ (i 1).val < win2_2.index t (1 : Fin 4) * 1 + 1; omega
  | ⟨2, _⟩ => show win2_2.index t (2 : Fin 4) * 2048 ≤ (i 2).val ∧ (i 2).val < win2_2.index t (2 : Fin 4) * 2048 + 2048; omega
  | ⟨3, _⟩ => show win2_2.index t (3 : Fin 4) * 64 ≤ (i 3).val ∧ (i 3).val < win2_2.index t (3 : Fin 4) * 64 + 64; omega

/-- The result array after the region is the head-split projection of the region's entry contents. -/
theorem region2 (c : Dev nD) :
    (dat2 (F := Ideal) V c).arrAt 2 cfg2.N = Cert.Attn.proj (V c main_arg2) (V c main_v2) :=
  (dat2 (F := Ideal) V c).arrAt_eq_of_cover 2 (Cert.Attn.proj (V c main_arg2) (V c main_v2))
    (fun t _ => written_back2 V c t) every_entry_written2

end Cert.Attn.KProj

end
-- ==== Proof.KProj.lean ====
import proofs.«131576_j2379411882045_2_alg».proof.Proof.Gen.KernelIdeal.Frame
import proofs.«131576_j2379411882045_2_alg».proof.Proof.Spec
import proofs.«131576_j2379411882045_2_alg».proof.Proof.KProj0
import proofs.«131576_j2379411882045_2_alg».proof.Proof.KProj1
import proofs.«131576_j2379411882045_2_alg».proof.Proof.KProj2

/-
  The three head projections (queries, keys, values): each result array, after its region, is the head-split
  projection of the activation and the projection matrix the region finds on entry,
  entry (b, h, s, d) = ∑ₘ X(b, s, m) · W(h·64 + d, m).
-/

noncomputable section

namespace Cert.Attn.KProj
open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem final0 (c : Dev nD) :
    (dat0 (F := Ideal) V c).arrAt 2 cfg0.N = Cert.Attn.proj (V c main_arg0) (V c main_v0) :=
  region0 V c

theorem final1 (c : Dev nD) :
    (dat1 (F := Ideal) V c).arrAt 2 cfg1.N = Cert.Attn.proj (V c main_arg1) (V c main_v1) :=
  region1 V c

theorem final2 (c : Dev nD) :
    (dat2 (F := Ideal) V c).arrAt 2 cfg2.N = Cert.Attn.proj (V c main_arg2) (V c main_v2) :=
  region2 V c

end Cert.Attn.KProj

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«131576_j2379411882045_2_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«131576_j2379411882045_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.KAttnPay.lean ====
/-
  The attention kernel's tile arithmetic read entry by entry, over the extended reals.

  One grid point holds a query tile q (512 rows of 64 lanes), the head's whole key and value blocks k, v (2048 rows
  of 64 lanes) and a bias tile p (512 × 2048).  The score tile is S(i, j) = (∑_d q(i, d) · k(j, d)) · (1/8) + p(i, j);
  the weight tile is its row softmax exp(S(i, j) − max_j S(i, ·)) / ∑_j' exp(S(i, j') − max_j S(i, ·)), the maximum
  folded from −∞; the context tile is C(i, d) = ∑_j W(i, j) · v(j, d).  Roundings are the identity on extended
  reals, and a block [1, 1, a, b] is its matrix [a, b].
-/
import proofs.«131576_j2379411882045_2_alg».proof.Proof.Gen.KernelIdeal.Skeleton
import proofs.«131576_j2379411882045_2_alg».proof.Proof.LibRowMax
import proofs.«131576_j2379411882045_2_alg».proof.Proof.LibRowSum
import proofs.«131576_j2379411882045_2_alg».proof.Proof.LibVecIx2
import proofs.«131576_j2379411882045_2_alg».proof.Proof.LibPlainDot
import proofs.«131576_j2379411882045_2_alg».proof.Proof.Spec

noncomputable section

namespace Cert.Attn.KAttnPay

open Idealize.ShloMosaic Idealize.ShloMosaic.ValueIdx
open Cert.KernelIdeal Cert.KernelIdeal.Gen

section Casts
variable {α : Type}

/-- A [1, 1, a, b] block viewed as its [a, b] matrix: entry (i, j) is the block's (0, 0, i, j). -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix stored as a [1, 1, a, b] block: entry (·, ·, i, j) is the matrix's (i, j). -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Casts

variable (q : Vec Ideal S1x1x512x64 .bf16) (k v : Vec Ideal S1x1x2048x64 .bf16) (p : Vec Ideal S1x1x512x2048 .f32)

/-- The score tile: scaled dot products of query rows and key rows, plus the bias tile. -/
def tileS (i : Fin 512) (j : Fin 2048) : EReal :=
  (∑ d : Fin 64, q (ix4 0 0 i d) * k (ix4 0 0 j d)) * c8 + p (ix4 0 0 i j)

/-- The kernel's score tile, entry by entry. -/
theorem pay3_apply (i : Fin 512) (j : Fin 2048) : k3_pay3 q k p (ix2 i j) = tileS q k p i j := by
  unfold k3_pay3 tileS
  refine congrArg₂ (· + ·) (congrArg (· * c8) ?_) (cast_11ab_ab p _ i j)
  refine (Cert.PlainDot.matmul_zero_plain_apply none _ _ i j).trans ?_
  exact Finset.sum_congr rfl fun d _ => congrArg₂ (· * ·) (cast_11ab_ab q _ i d)
    ((transpose_ix2_apply _ _ d j).trans (cast_11ab_ab k _ j d))

section Softmax

/-- The row softmax of a row of extended reals, the maximum folded from −∞. -/
def softmaxRow {b : ℕ} (f : Fin b → EReal) (j : Fin b) : EReal :=
  Ideal.div (Ideal.exp (f j - (Finset.univ : Finset (Fin b)).fold max ninf f))
    (∑ j' : Fin b, Ideal.exp (f j' - (Finset.univ : Finset (Fin b)).fold max ninf f))

variable {a b : ℕ} (X : FVec Ideal ⟨2, ![a, b]⟩ .f32)
  (hr : (⟨2, ![a, b]⟩ : Shape).Reduces [1] ⟨1, ![a]⟩) (hφ : FKind.Formats .f32)
  (hmx : (0xFF800000#32 : BitVec 32) = FKind.maximumf.neutral .f32 hφ)
  (hsm : (0x00000000#32 : BitVec 32) = FKind.add.neutral .f32 hφ)
  (hc : (⟨1, ![a]⟩ : Shape).ShapeCasts ⟨2, ![a, 1]⟩) (hb : (⟨2, ![a, 1]⟩ : Shape).Broadcasts ⟨2, ![a, b]⟩)

/-- The exponentials of a matrix's entries, each less its row's maximum (the row maxima kept as a column and
    broadcast back over the row). -/
def expTile : FVec Ideal ⟨2, ![a, b]⟩ .f32 :=
  exp (subf X (broadcastTo ⟨2, ![a, b]⟩
    (shapeCast ⟨2, ![a, 1]⟩ (multiReduction .maximumf [1] ⟨1, ![a]⟩ X 0xFF800000#32 hr hφ hmx) hc) hb))

theorem expTile_apply (i : Fin a) (j : Fin b) :
    expTile X hr hφ hmx hc hb (ix2 i j)
      = Ideal.exp (X (ix2 i j) - (Finset.univ : Finset (Fin b)).fold max ninf fun j' => X (ix2 i j')) := by
  unfold expTile
  refine congrArg Ideal.exp (congrArg (X (ix2 i j) - ·) ?_)
  exact (Cert.Lib.VecIx2.bcast_col _ hb i j).trans (Cert.Lib.RowMax.rowmax_column X hr hφ hmx hc i 0)

/-- Those exponentials divided by their row sums, kept as a column and broadcast back over the row: the row softmax,
    entry by entry. -/
theorem softmax_apply (i : Fin a) (j : Fin b) :
    divf (expTile X hr hφ hmx hc hb) (broadcastTo ⟨2, ![a, b]⟩
      (shapeCast ⟨2, ![a, 1]⟩ (multiReduction .add [1] ⟨1, ![a]⟩ (expTile X hr hφ hmx hc hb) 0x00000000#32 hr hφ hsm) hc) hb)
      (ix2 i j) = softmaxRow (fun j' => X (ix2 i j')) j := by
  unfold softmaxRow
  refine congrArg₂ Ideal.div (expTile_apply X hr hφ hmx hc hb i j) ?_
  refine (Cert.Lib.VecIx2.bcast_col _ hb i j).trans
    ((Cert.Lib.RowSum.rowsum_column (expTile X hr hφ hmx hc hb) hr hφ hsm hc i 0).trans ?_)
  exact Finset.sum_congr rfl fun j' _ => expTile_apply X hr hφ hmx hc hb i j'

end Softmax

/-- The weight tile: the row softmax of the score tile. -/
def tileW (i : Fin 512) (j : Fin 2048) : EReal := softmaxRow (tileS q k p i) j

/-- The kernel's weight tile, entry by entry. -/
theorem pay4_apply (i : Fin 512) (j : Fin 2048) : k3_pay4 q k p (ix2 i j) = tileW q k p i j := by
  unfold k3_pay4 tileW
  refine (softmax_apply (k3_pay3 q k p) reduces_S512x2048_S512 (.inl rfl) rfl rfl shapeCasts_S512_S512x1
    broadcasts_S512x1_S512x2048 i j).trans ?_
  exact congrArg (softmaxRow · j) (funext fun j' => pay3_apply q k p i j')

/-- The score tile as the block the kernel stores. -/
theorem pay5_apply (u w : Fin 1) (i : Fin 512) (j : Fin 2048) : k3_pay5 q k p (ix4 u w i j) = tileS q k p i j := by
  unfold k3_pay5
  exact (cast_ab_11ab _ _ u w i j).trans (pay3_apply q k p i j)

/-- The weight tile as the block the kernel stores. -/
theorem pay6_apply (u w : Fin 1) (i : Fin 512) (j : Fin 2048) : k3_pay6 q k p (ix4 u w i j) = tileW q k p i j := by
  unfold k3_pay6
  exact (cast_ab_11ab _ _ u w i j).trans (pay4_apply q k p i j)

/-- The value block as its matrix. -/
theorem pay2_apply (j : Fin 2048) (d : Fin 64) : k3_pay2 v (ix2 j d) = v (ix4 0 0 j d) := by
  unfold k3_pay2
  exact cast_11ab_ab v _ j d

/-- The context tile of a weight matrix and a value matrix: weights times values, summed over the keys. -/
theorem pay1_apply (vv : FVec Ideal S2048x64 .bf16) (W : FVec Ideal S512x2048 .f32) (u w : Fin 1) (i : Fin 512) (d : Fin 64) :
    k3_pay1 vv W (ix4 u w i d) = ∑ j : Fin 2048, W (ix2 i j) * vv (ix2 j d) := by
  unfold k3_pay1
  refine (cast_ab_11ab _ _ u w i d).trans ?_
  exact Cert.PlainDot.matmul_zero_plain_apply none (truncf .bf16 W bitsLt_bf16_f32) vv i d

/-- The context tile: the weight tile times the value block, summed over the keys. -/
def tileC (i : Fin 512) (d : Fin 64) : EReal := ∑ j : Fin 2048, tileW q k p i j * v (ix4 0 0 j d)

/-- The kernel's context block, entry by entry. -/
theorem ctx_apply (u w : Fin 1) (i : Fin 512) (d : Fin 64) :
    k3_pay1 (k3_pay2 v) (k3_pay4 q k p) (ix4 u w i d) = tileC q k v p i d :=
  (pay1_apply (k3_pay2 v) (k3_pay4 q k p) u w i d).trans
    (Finset.sum_congr rfl fun j _ => congrArg₂ (· * ·) (pay4_apply q k p i j) (pay2_apply v j d))

end Cert.Attn.KAttnPay

end
-- ==== Proof.KAttnIdx.lean ====
/-
  Where the attention kernel's blocks sit in their arrays.

  Grid point t = (b, h, n) of the 2 × 16 × 4 grid stages query rows n·512 … n·512 + 511 of head h of batch b, the
  head's whole key and value blocks, and the bias rows of the same row tile; it writes back the same row tile of each
  of the three outputs.  Here: those relations between the index maps, which hold at each of the 128 points; each input block
  read as entries of its array; and the fact that the points' output blocks cover each output array.
-/
import proofs.«131576_j2379411882045_2_alg».proof.Proof.Gen.KernelIdeal.Frame
import proofs.«131576_j2379411882045_2_alg».proof.Proof.Spec
import Idealize.ShloMosaic.Lib.Pipeline.Value

noncomputable section

namespace Cert.Attn.KAttnIdx

open Idealize.ShloMosaic Idealize.ShloMosaic.TcCoe Idealize.SL.Sem Idealize.ShloMosaic.ValueIdx
open Idealize.ShloMosaic.Pipeline (Dat)
open Cert.KernelIdeal Cert.KernelIdeal.Gen

theorem zero_offsets4 : (![0, 0, 0, 0] : Fin 4 → Nat) = fun _ => 0 := funext fun a => by fin_cases a <;> rfl

/-- The index maps, over the 128 grid points: every window sits at the output's batch and head; the query, bias and
    output tiles at the output's row tile; the key and value blocks at row 0; every last coordinate at 0. -/
theorem block_indices : ∀ t : Fin cfg3.N,
    win3_0.index t (0 : Fin 4) = win3_6.index t (0 : Fin 4) ∧ win3_0.index t (1 : Fin 4) = win3_6.index t (1 : Fin 4)
    ∧ win3_0.index t (2 : Fin 4) = win3_6.index t (2 : Fin 4) ∧ win3_0.index t (3 : Fin 4) = 0
    ∧ win3_1.index t (0 : Fin 4) = win3_6.index t (0 : Fin 4) ∧ win3_1.index t (1 : Fin 4) = win3_6.index t (1 : Fin 4)
    ∧ win3_1.index t (2 : Fin 4) = 0 ∧ win3_1.index t (3 : Fin 4) = 0
    ∧ win3_2.index t (0 : Fin 4) = win3_6.index t (0 : Fin 4) ∧ win3_2.index t (1 : Fin 4) = win3_6.index t (1 : Fin 4)
    ∧ win3_2.index t (2 : Fin 4) = 0 ∧ win3_2.index t (3 : Fin 4) = 0
    ∧ win3_3.index t (0 : Fin 4) = win3_6.index t (0 : Fin 4) ∧ win3_3.index t (1 : Fin 4) = win3_6.index t (1 : Fin 4)
    ∧ win3_3.index t (2 : Fin 4) = win3_6.index t (2 : Fin 4) ∧ win3_3.index t (3 : Fin 4) = 0
    ∧ win3_4.index t (0 : Fin 4) = win3_6.index t (0 : Fin 4) ∧ win3_4.index t (1 : Fin 4) = win3_6.index t (1 : Fin 4)
    ∧ win3_4.index t (2 : Fin 4) = win3_6.index t (2 : Fin 4) ∧ win3_4.index t (3 : Fin 4) = 0
    ∧ win3_5.index t (0 : Fin 4) = win3_6.index t (0 : Fin 4) ∧ win3_5.index t (1 : Fin 4) = win3_6.index t (1 : Fin 4)
    ∧ win3_5.index t (2 : Fin 4) = win3_6.index t (2 : Fin 4) ∧ win3_5.index t (3 : Fin 4) = 0
    ∧ win3_6.index t (3 : Fin 4) = 0 :=
  (by decide +kernel : ∀ t : Fin grid3.N, _)

/-- Every (batch, head, row tile) is some grid point's. -/
theorem point_of_tile : ∀ (b : Fin 2) (h : Fin 16) (n : Fin 4), ∃ t : Fin cfg3.N, win3_6.index t = ![b.val, h.val, n.val, 0] :=
  (by decide +kernel : ∀ (b : Fin 2) (h : Fin 16) (n : Fin 4), ∃ t : Fin grid3.N, win3_6.index t = ![b.val, h.val, n.val, 0])

variable (V : (c : Dev nD) → (b : Ref sig .tc) → Buf (Elt Ideal) ((c : Thread nD τ).loc b))

/-- The query tile at a point is the rows of its row tile of the query array. -/
theorem query_row (c : Dev nD) (t : Fin cfg3.N) (z : S1x1x512x64.Idx) (g : Sh.Idx)
    (h0 : (g 0).val = win3_0.index t (0 : Fin 4) + (z 0).val) (h1 : (g 1).val = win3_0.index t (1 : Fin 4) + (z 1).val)
    (h2 : (g 2).val = win3_0.index t (2 : Fin 4) * 512 + (z 2).val) (h3 : (g 3).val = win3_0.index t (3 : Fin 4) * 64 + (z 3).val) :
    (iblk3 V c 0 t : Vec Ideal S1x1x512x64 .bf16) z = (V c main_v5 : Sh.Idx → EReal) g := by
  unfold iblk3
  rw [View.read_apply]
  show V c main_v5 _ = V c main_v5 g
  congr 1
  funext a
  apply Fin.ext
  match a with
  | ⟨0, _⟩ => show win3_0.index t (0 : Fin 4) * 1 + 1 * (z 0).val = (g 0).val; omega
  | ⟨1, _⟩ => show win3_0.index t (1 : Fin 4) * 1 + 1 * (z 1).val = (g 1).val; omega
  | ⟨2, _⟩ => show win3_0.index t (2 : Fin 4) * 512 + 1 * (z 2).val = (g 2).val; omega
  | ⟨3, _⟩ => show win3_0.index t (3 : Fin 4) * 64 + 1 * (z 3).val = (g 3).val; omega

/-- The key block at a point is the head's whole key rows. -/
theorem key_row (c : Dev nD) (t : Fin cfg3.N) (z : S1x1x2048x64.Idx) (g : Sh.Idx)
    (h0 : (g 0).val = win3_1.index t (0 : Fin 4) + (z 0).val) (h1 : (g 1).val = win3_1.index t (1 : Fin 4) + (z 1).val)
    (h2 : (g 2).val = win3_1.index t (2 : Fin 4) * 2048 + (z 2).val) (h3 : (g 3).val = win3_1.index t (3 : Fin 4) * 64 + (z 3).val) :
    (iblk3 V c 1 t : Vec Ideal S1x1x2048x64 .bf16) z = (V c main_v6 : Sh.Idx → EReal) g := by
  unfold iblk3
  rw [View.read_apply]
  show V c main_v6 _ = V c main_v6 g
  congr 1
  funext a
  apply Fin.ext
  match a with
  | ⟨0, _⟩ => show win3_1.index t (0 : Fin 4) * 1 + 1 * (z 0).val = (g 0).val; omega
  | ⟨1, _⟩ => show win3_1.index t (1 : Fin 4) * 1 + 1 * (z 1).val = (g 1).val; omega
  | ⟨2, _⟩ => show win3_1.index t (2 : Fin 4) * 2048 + 1 * (z 2).val = (g 2).val; omega
  | ⟨3, _⟩ => show win3_1.index t (3 : Fin 4) * 64 + 1 * (z 3).val = (g 3).val; omega

/-- The value block at a point is the head's whole value rows. -/
theorem value_row (c : Dev nD) (t : Fin cfg3.N) (z : S1x1x2048x64.Idx) (g : Sh.Idx)
    (h0 : (g 0).val = win3_2.index t (0 : Fin 4) + (z 0).val) (h1 : (g 1).val = win3_2.index t (1 : Fin 4) + (z 1).val)
    (h2 : (g 2).val = win3_2.index t (2 : Fin 4) * 2048 + (z 2).val) (h3 : (g 3).val = win3_2.index t (3 : Fin 4) * 64 + (z 3).val) :
    (iblk3 V c 2 t : Vec Ideal S1x1x2048x64 .bf16) z = (V c main_v7 : Sh.Idx → EReal) g := by
  unfold iblk3
  rw [View.read_apply]
  show V c main_v7 _ = V c main_v7 g
  congr 1
  funext a
  apply Fin.ext
  match a with
  | ⟨0, _⟩ => show win3_2.index t (0 : Fin 4) * 1 + 1 * (z 0).val = (g 0).val; omega
  | ⟨1, _⟩ => show win3_2.index t (1 : Fin 4) * 1 + 1 * (z 1).val = (g 1).val; omega
  | ⟨2, _⟩ => show win3_2.index t (2 : Fin 4) * 2048 + 1 * (z 2).val = (g 2).val; omega
  | ⟨3, _⟩ => show win3_2.index t (3 : Fin 4) * 64 + 1 * (z 3).val = (g 3).val; omega

/-- The bias tile at a point is the rows of its row tile of the bias array. -/
theorem bias_entry (c : Dev nD) (t : Fin cfg3.N) (z : S1x1x512x2048.Idx) (g : Ss.Idx)
    (h0 : (g 0).val = win3_3.index t (0 : Fin 4) + (z 0).val) (h1 : (g 1).val = win3_3.index t (1 : Fin 4) + (z 1).val)
    (h2 : (g 2).val = win3_3.index t (2 : Fin 4) * 512 + (z 2).val) (h3 : (g 3).val = win3_3.index t (3 : Fin 4) * 2048 + (z 3).val) :
    (iblk3 V c 3 t : Vec Ideal S1x1x512x2048 .f32) z = (V c main_arg3 : Ss.Idx → EReal) g := by
  unfold iblk3
  rw [View.read_apply]
  show V c main_arg3 _ = V c main_arg3 g
  congr 1
  funext a
  apply Fin.ext
  match a with
  | ⟨0, _⟩ => show win3_3.index t (0 : Fin 4) * 1 + 1 * (z 0).val = (g 0).val; omega
  | ⟨1, _⟩ => show win3_3.index t (1 : Fin 4) * 1 + 1 * (z 1).val = (g 1).val; omega
  | ⟨2, _⟩ => show win3_3.index t (2 : Fin 4) * 512 + 1 * (z 2).val = (g 2).val; omega
  | ⟨3, _⟩ => show win3_3.index t (3 : Fin 4) * 2048 + 1 * (z 3).val = (g 3).val; omega

/-- An index of the scores array is in point t's block iff each coordinate is in the block's range on its axis. -/
theorem mem_scores_tile (t : Fin cfg3.N) (i : Ss.Idx) :
    i ∈ ((cfg3.win 6).blk t).view.set ↔ ∀ a : Fin 4, win3_6.index t a * S1x1x512x2048.size a ≤ (i a).val ∧ (i a).val < win3_6.index t a * S1x1x512x2048.size a + S1x1x512x2048.size a := by
  show i ∈ ((View.whole main_v8_2).slice (win3_6.rect t)).set ↔ _
  rw [View.set_slice_whole, Rect.mem_set_unit]
  exact Iff.rfl

/-- The same for the attention-weights array. -/
theorem mem_attn_tile (t : Fin cfg3.N) (i : Ss.Idx) :
    i ∈ ((cfg3.win 5).blk t).view.set ↔ ∀ a : Fin 4, win3_5.index t a * S1x1x512x2048.size a ≤ (i a).val ∧ (i a).val < win3_5.index t a * S1x1x512x2048.size a + S1x1x512x2048.size a := by
  show i ∈ ((View.whole main_v8_1).slice (win3_5.rect t)).set ↔ _
  rw [View.set_slice_whole, Rect.mem_set_unit]
  exact Iff.rfl

/-- The same for the context array. -/
theorem mem_ctx_tile (t : Fin cfg3.N) (i : Sh.Idx) :
    i ∈ ((cfg3.win 4).blk t).view.set ↔ ∀ a : Fin 4, win3_4.index t a * S1x1x512x64.size a ≤ (i a).val ∧ (i a).val < win3_4.index t a * S1x1x512x64.size a + S1x1x512x64.size a := by
  show i ∈ ((View.whole main_v8_0).slice (win3_4.rect t)).set ↔ _
  rw [View.set_slice_whole, Rect.mem_set_unit]
  exact Iff.rfl

/-- The point that writes row r of head h of batch b is (b, h, r / 512): the scores' blocks cover their array. -/
theorem every_score_written (i : Ss.Idx) : ∃ t : Fin cfg3.N, (cfg3.win 6).flush t = true ∧ i ∈ ((cfg3.win 6).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := point_of_tile ⟨(i 0).val, hi0⟩ ⟨(i 1).val, hi1⟩ ⟨(i 2).val / 512, by omega⟩
  have q0 : win3_6.index t (0 : Fin 4) = (i 0).val := congrFun ht 0
  have q1 : win3_6.index t (1 : Fin 4) = (i 1).val := congrFun ht 1
  have q2 : win3_6.index t (2 : Fin 4) = (i 2).val / 512 := congrFun ht 2
  have q3 : win3_6.index t (3 : Fin 4) = 0 := congrFun ht 3
  refine ⟨t, flush3_6 t, ?_⟩
  rw [mem_scores_tile]
  intro a
  match a with
  | ⟨0, _⟩ => show win3_6.index t (0 : Fin 4) * 1 ≤ (i 0).val ∧ (i 0).val < win3_6.index t (0 : Fin 4) * 1 + 1; omega
  | ⟨1, _⟩ => show win3_6.index t (1 : Fin 4) * 1 ≤ (i 1).val ∧ (i 1).val < win3_6.index t (1 : Fin 4) * 1 + 1; omega
  | ⟨2, _⟩ => show win3_6.index t (2 : Fin 4) * 512 ≤ (i 2).val ∧ (i 2).val < win3_6.index t (2 : Fin 4) * 512 + 512; omega
  | ⟨3, _⟩ => show win3_6.index t (3 : Fin 4) * 2048 ≤ (i 3).val ∧ (i 3).val < win3_6.index t (3 : Fin 4) * 2048 + 2048; omega

/-- The attention weights' blocks cover their array. -/
theorem every_attn_entry_written (i : Ss.Idx) : ∃ t : Fin cfg3.N, (cfg3.win 5).flush t = true ∧ i ∈ ((cfg3.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := point_of_tile ⟨(i 0).val, hi0⟩ ⟨(i 1).val, hi1⟩ ⟨(i 2).val / 512, by omega⟩
  have q0 : win3_6.index t (0 : Fin 4) = (i 0).val := congrFun ht 0
  have q1 : win3_6.index t (1 : Fin 4) = (i 1).val := congrFun ht 1
  have q2 : win3_6.index t (2 : Fin 4) = (i 2).val / 512 := congrFun ht 2
  obtain ⟨-, -, -, -, -, -, -, -, -, -, -, -, -, -, -, -, -, -, -, -, e0, e1, e2, e3, -⟩ := block_indices t
  refine ⟨t, flush3_5 t, ?_⟩
  rw [mem_attn_tile]
  intro a
  match a with
  | ⟨0, _⟩ => show win3_5.index t (0 : Fin 4) * 1 ≤ (i 0).val ∧ (i 0).val < win3_5.index t (0 : Fin 4) * 1 + 1; omega
  | ⟨1, _⟩ => show win3_5.index t (1 : Fin 4) * 1 ≤ (i 1).val ∧ (i 1).val < win3_5.index t (1 : Fin 4) * 1 + 1; omega
  | ⟨2, _⟩ => show win3_5.index t (2 : Fin 4) * 512 ≤ (i 2).val ∧ (i 2).val < win3_5.index t (2 : Fin 4) * 512 + 512; omega
  | ⟨3, _⟩ => show win3_5.index t (3 : Fin 4) * 2048 ≤ (i 3).val ∧ (i 3).val < win3_5.index t (3 : Fin 4) * 2048 + 2048; omega

/-- The context's blocks cover their array. -/
theorem every_ctx_entry_written (i : Sh.Idx) : ∃ t : Fin cfg3.N, (cfg3.win 4).flush t = true ∧ i ∈ ((cfg3.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := point_of_tile ⟨(i 0).val, hi0⟩ ⟨(i 1).val, hi1⟩ ⟨(i 2).val / 512, by omega⟩
  have q0 : win3_6.index t (0 : Fin 4) = (i 0).val := congrFun ht 0
  have q1 : win3_6.index t (1 : Fin 4) = (i 1).val := congrFun ht 1
  have q2 : win3_6.index t (2 : Fin 4) = (i 2).val / 512 := congrFun ht 2
  obtain ⟨-, -, -, -, -, -, -, -, -, -, -, -, -, -, -, -, e0, e1, e2, e3, -⟩ := block_indices t
  refine ⟨t, flush3_4 t, ?_⟩
  rw [mem_ctx_tile]
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 1 ≤ (i 1).val ∧ (i 1).val < win3_4.index t (1 : Fin 4) * 1 + 1; omega
  | ⟨2, _⟩ => show win3_4.index t (2 : Fin 4) * 512 ≤ (i 2).val ∧ (i 2).val < win3_4.index t (2 : Fin 4) * 512 + 512; omega
  | ⟨3, _⟩ => show win3_4.index t (3 : Fin 4) * 64 ≤ (i 3).val ∧ (i 3).val < win3_4.index t (3 : Fin 4) * 64 + 64; omega

end Cert.Attn.KAttnIdx

end
-- ==== Proof.KAttnBlocks.lean ====
/-
  From tiles to arrays: the attention kernel's three outputs as functions of the whole arrays.

  Grid point t = (b, h, n) holds query rows n·512 … n·512 + 511 of head h of batch b, with the head's whole key and
  value blocks and the matching bias rows.  Entry (i, j) of its tiles is therefore entry (b, h, n·512 + i, j) of the
  scores, of the attention weights, and (with lane d for j) of the context: a row's maximum and sum range over the
  whole key axis, which is one tile wide, so nothing is regrouped.  So what each point writes back is its block of
  the whole-array function, and since the blocks cover each output array, the array ends holding that function.
-/
import proofs.«131576_j2379411882045_2_alg».proof.Proof.Gen.KernelIdeal.Frame
import proofs.«131576_j2379411882045_2_alg».proof.Proof.KAttnPay
import proofs.«131576_j2379411882045_2_alg».proof.Proof.KAttnIdx
import Idealize.ShloMosaic.Lib.Pipeline.Value

noncomputable section

namespace Cert.Attn.KAttnBlocks

open Idealize.ShloMosaic Idealize.ShloMosaic.TcCoe Idealize.SL.Sem Idealize.ShloMosaic.ValueIdx
open Idealize.ShloMosaic.Pipeline (Dat)
open Cert.KernelIdeal Cert.KernelIdeal.Gen Cert.Attn.KAttnPay Cert.Attn.KAttnIdx

/-! ## One row of one tile against the arrays -/

section Point
variable (Q K Vv : Sh.Idx → EReal) (Pb : Ss.Idx → EReal)
variable (x0 : Vec Ideal S1x1x512x64 .bf16) (x1 x2 : Vec Ideal S1x1x2048x64 .bf16) (x3 : Vec Ideal S1x1x512x2048 .f32)
variable (b : Fin 2) (h : Fin 16) (r : Fin 2048) (i : Fin 512)

/-- If row i of the query and bias tiles is row r of head h of batch b, and the key block is that head's keys, then
    row i of the score tile is row r of the scores. -/
theorem scores_row (hx0 : ∀ d, x0 (ix4 0 0 i d) = Q (ix4 b h r d)) (hx1 : ∀ j d, x1 (ix4 0 0 j d) = K (ix4 b h j d))
    (hx3 : ∀ j, x3 (ix4 0 0 i j) = Pb (ix4 b h r j)) (j : Fin 2048) :
    tileS x0 x1 x3 i j = scoresAt Q K Pb b h r j := by
  unfold tileS scoresAt
  exact congrArg₂ (· + ·) (congrArg (· * c8) (Finset.sum_congr rfl fun d _ => congrArg₂ (· * ·) (hx0 d) (hx1 j d))) (hx3 j)

/-- Then row i of the weight tile is row r of the attention weights: the row's maximum and sum range over the same
    2048 keys on both sides. -/
theorem attn_row (hx0 : ∀ d, x0 (ix4 0 0 i d) = Q (ix4 b h r d)) (hx1 : ∀ j d, x1 (ix4 0 0 j d) = K (ix4 b h j d))
    (hx3 : ∀ j, x3 (ix4 0 0 i j) = Pb (ix4 b h r j)) (j : Fin 2048) :
    tileW x0 x1 x3 i j = attnAt (scores Q K Pb) b h r j := by
  unfold tileW
  rw [show tileS x0 x1 x3 i = fun j' => scoresAt Q K Pb b h r j' from
    funext fun j' => scores_row Q K Pb x0 x1 x3 b h r i hx0 hx1 hx3 j']
  rfl

/-- And row i of the context tile is row r of the context, the value block being that head's values. -/
theorem ctx_row (hx0 : ∀ d, x0 (ix4 0 0 i d) = Q (ix4 b h r d)) (hx1 : ∀ j d, x1 (ix4 0 0 j d) = K (ix4 b h j d))
    (hx2 : ∀ j d, x2 (ix4 0 0 j d) = Vv (ix4 b h j d)) (hx3 : ∀ j, x3 (ix4 0 0 i j) = Pb (ix4 b h r j)) (d : Fin 64) :
    tileC x0 x1 x2 x3 i d = ctxAt (attn (scores Q K Pb)) Vv b h r d := by
  unfold tileC ctxAt
  exact Finset.sum_congr rfl fun j _ => congrArg₂ (· * ·)
    ((attn_row Q K Pb x0 x1 x3 b h r i hx0 hx1 hx3 j).trans (attn_ix _ b h r j).symm) (hx2 j d)

end Point

/-! ## A block entry against an array entry -/

section Entry
variable (Q K Vv : Sh.Idx → EReal) (Pb : Ss.Idx → EReal)
variable (x0 : Vec Ideal S1x1x512x64 .bf16) (x1 x2 : Vec Ideal S1x1x2048x64 .bf16) (x3 : Vec Ideal S1x1x512x2048 .f32)

/-- The stored score block at y is the scores at e, when e has y's key and sits at y's row of the arrays. -/
theorem scores_entry (y : S1x1x512x2048.Idx) (e : Ss.Idx)
    (hx0 : ∀ d : Fin 64, x0 (ix4 0 0 (y 2) d) = Q (ix4 (e 0) (e 1) (e 2) d))
    (hx1 : ∀ (j : Fin 2048) (d : Fin 64), x1 (ix4 0 0 j d) = K (ix4 (e 0) (e 1) j d))
    (hx3 : ∀ j : Fin 2048, x3 (ix4 0 0 (y 2) j) = Pb (ix4 (e 0) (e 1) (e 2) j))
    (he3 : (e 3).val = (y 3).val) : k3_pay5 x0 x1 x3 y = scores Q K Pb e := by
  obtain ⟨u, w, i, j, rfl⟩ : ∃ (u w : Fin 1) (i : Fin 512) (j : Fin 2048), y = ix4 u w i j := ⟨y 0, y 1, y 2, y 3, eq_ix4 y⟩
  obtain ⟨b, h, r, jj, rfl⟩ : ∃ (b : Fin 2) (h : Fin 16) (r jj : Fin 2048), e = ix4 b h r jj := ⟨e 0, e 1, e 2, e 3, eq_ix4 e⟩
  obtain rfl : jj = j := Fin.ext he3
  rw [pay5_apply, scores_ix]
  exact scores_row Q K Pb x0 x1 x3 b h r i hx0 hx1 hx3 jj

/-- The stored weight block at y is the attention weights at e. -/
theorem attn_entry (y : S1x1x512x2048.Idx) (e : Ss.Idx)
    (hx0 : ∀ d : Fin 64, x0 (ix4 0 0 (y 2) d) = Q (ix4 (e 0) (e 1) (e 2) d))
    (hx1 : ∀ (j : Fin 2048) (d : Fin 64), x1 (ix4 0 0 j d) = K (ix4 (e 0) (e 1) j d))
    (hx3 : ∀ j : Fin 2048, x3 (ix4 0 0 (y 2) j) = Pb (ix4 (e 0) (e 1) (e 2) j))
    (he3 : (e 3).val = (y 3).val) : k3_pay6 x0 x1 x3 y = attn (scores Q K Pb) e := by
  obtain ⟨u, w, i, j, rfl⟩ : ∃ (u w : Fin 1) (i : Fin 512) (j : Fin 2048), y = ix4 u w i j := ⟨y 0, y 1, y 2, y 3, eq_ix4 y⟩
  obtain ⟨b, h, r, jj, rfl⟩ : ∃ (b : Fin 2) (h : Fin 16) (r jj : Fin 2048), e = ix4 b h r jj := ⟨e 0, e 1, e 2, e 3, eq_ix4 e⟩
  obtain rfl : jj = j := Fin.ext he3
  rw [pay6_apply, attn_ix]
  exact attn_row Q K Pb x0 x1 x3 b h r i hx0 hx1 hx3 jj

/-- The stored context block at y is the context at e. -/
theorem ctx_entry (y : S1x1x512x64.Idx) (e : Sh.Idx)
    (hx0 : ∀ d : Fin 64, x0 (ix4 0 0 (y 2) d) = Q (ix4 (e 0) (e 1) (e 2) d))
    (hx1 : ∀ (j : Fin 2048) (d : Fin 64), x1 (ix4 0 0 j d) = K (ix4 (e 0) (e 1) j d))
    (hx2 : ∀ (j : Fin 2048) (d : Fin 64), x2 (ix4 0 0 j d) = Vv (ix4 (e 0) (e 1) j d))
    (hx3 : ∀ j : Fin 2048, x3 (ix4 0 0 (y 2) j) = Pb (ix4 (e 0) (e 1) (e 2) j))
    (he3 : (e 3).val = (y 3).val) :
    k3_pay1 (k3_pay2 x2) (k3_pay4 x0 x1 x3) y = ctx (attn (scores Q K Pb)) Vv e := by
  obtain ⟨u, w, i, d, rfl⟩ : ∃ (u w : Fin 1) (i : Fin 512) (d : Fin 64), y = ix4 u w i d := ⟨y 0, y 1, y 2, y 3, eq_ix4 y⟩
  obtain ⟨b, h, r, dd, rfl⟩ : ∃ (b : Fin 2) (h : Fin 16) (r : Fin 2048) (dd : Fin 64), e = ix4 b h r dd := ⟨e 0, e 1, e 2, e 3, eq_ix4 e⟩
  obtain rfl : dd = d := Fin.ext he3
  rw [ctx_apply, ctx_ix]
  exact ctx_row Q K Vv Pb x0 x1 x2 x3 b h r i hx0 hx1 hx2 hx3 dd

end Entry

/-! ## What each point writes back -/

variable (V : (c : Dev nD) → (b : Ref sig .tc) → Buf (Elt Ideal) ((c : Thread nD τ).loc b))

/-- Point t writes back its block of the scores of the whole arrays. -/
theorem scores_written_back (c : Dev nD) (t : Fin cfg3.N) :
    (dat3 (F := Ideal) V c).flushed 6 t
      = ((cfg3.win 6).blk t).view.read (Elt Ideal) (scores (V c main_v5) (V c main_v6) (V c main_arg3)) := by
  show (cfg3.win 6).cut (grid3.coords t) ((dat3 V c).after 6 t) = _
  rw [after3_6]
  unfold out3_6
  rw [View.canon_unit_zero zero_offsets4]
  simp only [View.ld_unit_zero (S := S1x1x512x64) zero_offsets4, View.ld_unit_zero (S := S1x1x2048x64) zero_offsets4,
    View.ld_unit_zero (S := S1x1x512x2048) zero_offsets4]
  obtain ⟨a0, a1, a2, a3, b0, b1, b2, b3, -, -, -, -, d0, d1, d2, d3, -, -, -, -, -, -, -, -, z3⟩ := block_indices t
  funext y
  have hy0 : (y 0).val < 1 := (y 0).isLt
  have hy1 : (y 1).val < 1 := (y 1).isLt
  show k3_pay5 (iblk3 V c 0 t) (iblk3 V c 1 t) (iblk3 V c 3 t) y
    = scores (V c main_v5) (V c main_v6) (V c main_arg3) (((cfg3.win 6).blk t).view.emb y)
  refine scores_entry (V c main_v5) (V c main_v6) (V c main_arg3) (iblk3 V c 0 t) (iblk3 V c 1 t) (iblk3 V c 3 t) y
    (((cfg3.win 6).blk t).view.emb y) (fun d => ?_) (fun j d => ?_) (fun j => ?_) ?_
  · refine query_row V c t _ _ ?_ ?_ ?_ ?_
    · show win3_6.index t (0 : Fin 4) * 1 + 1 * (y 0).val = win3_0.index t (0 : Fin 4) + 0; omega
    · show win3_6.index t (1 : Fin 4) * 1 + 1 * (y 1).val = win3_0.index t (1 : Fin 4) + 0; omega
    · show win3_6.index t (2 : Fin 4) * 512 + 1 * (y 2).val = win3_0.index t (2 : Fin 4) * 512 + (y 2).val; omega
    · show d.val = win3_0.index t (3 : Fin 4) * 64 + d.val; omega
  · refine key_row V c t _ _ ?_ ?_ ?_ ?_
    · show win3_6.index t (0 : Fin 4) * 1 + 1 * (y 0).val = win3_1.index t (0 : Fin 4) + 0; omega
    · show win3_6.index t (1 : Fin 4) * 1 + 1 * (y 1).val = win3_1.index t (1 : Fin 4) + 0; omega
    · show j.val = win3_1.index t (2 : Fin 4) * 2048 + j.val; omega
    · show d.val = win3_1.index t (3 : Fin 4) * 64 + d.val; omega
  · refine bias_entry V c t _ _ ?_ ?_ ?_ ?_
    · show win3_6.index t (0 : Fin 4) * 1 + 1 * (y 0).val = win3_3.index t (0 : Fin 4) + 0; omega
    · show win3_6.index t (1 : Fin 4) * 1 + 1 * (y 1).val = win3_3.index t (1 : Fin 4) + 0; omega
    · show win3_6.index t (2 : Fin 4) * 512 + 1 * (y 2).val = win3_3.index t (2 : Fin 4) * 512 + (y 2).val; omega
    · show j.val = win3_3.index t (3 : Fin 4) * 2048 + j.val; omega
  · show win3_6.index t (3 : Fin 4) * 2048 + 1 * (y 3).val = (y 3).val; omega

/-- Point t writes back its block of the attention weights of the whole arrays. -/
theorem attn_written_back (c : Dev nD) (t : Fin cfg3.N) :
    (dat3 (F := Ideal) V c).flushed 5 t
      = ((cfg3.win 5).blk t).view.read (Elt Ideal) (attn (scores (V c main_v5) (V c main_v6) (V c main_arg3))) := by
  show (cfg3.win 5).cut (grid3.coords t) ((dat3 V c).after 5 t) = _
  rw [after3_5]
  unfold out3_5
  rw [View.canon_unit_zero zero_offsets4]
  simp only [View.ld_unit_zero (S := S1x1x512x64) zero_offsets4, View.ld_unit_zero (S := S1x1x2048x64) zero_offsets4,
    View.ld_unit_zero (S := S1x1x512x2048) zero_offsets4]
  obtain ⟨a0, a1, a2, a3, b0, b1, b2, b3, -, -, -, -, d0, d1, d2, d3, -, -, -, -, f0, f1, f2, f3, -⟩ := block_indices t
  funext y
  have hy0 : (y 0).val < 1 := (y 0).isLt
  have hy1 : (y 1).val < 1 := (y 1).isLt
  show k3_pay6 (iblk3 V c 0 t) (iblk3 V c 1 t) (iblk3 V c 3 t) y
    = attn (scores (V c main_v5) (V c main_v6) (V c main_arg3)) (((cfg3.win 5).blk t).view.emb y)
  refine attn_entry (V c main_v5) (V c main_v6) (V c main_arg3) (iblk3 V c 0 t) (iblk3 V c 1 t) (iblk3 V c 3 t) y
    (((cfg3.win 5).blk t).view.emb y) (fun d => ?_) (fun j d => ?_) (fun j => ?_) ?_
  · refine query_row V c t _ _ ?_ ?_ ?_ ?_
    · show win3_5.index t (0 : Fin 4) * 1 + 1 * (y 0).val = win3_0.index t (0 : Fin 4) + 0; omega
    · show win3_5.index t (1 : Fin 4) * 1 + 1 * (y 1).val = win3_0.index t (1 : Fin 4) + 0; omega
    · show win3_5.index t (2 : Fin 4) * 512 + 1 * (y 2).val = win3_0.index t (2 : Fin 4) * 512 + (y 2).val; omega
    · show d.val = win3_0.index t (3 : Fin 4) * 64 + d.val; omega
  · refine key_row V c t _ _ ?_ ?_ ?_ ?_
    · show win3_5.index t (0 : Fin 4) * 1 + 1 * (y 0).val = win3_1.index t (0 : Fin 4) + 0; omega
    · show win3_5.index t (1 : Fin 4) * 1 + 1 * (y 1).val = win3_1.index t (1 : Fin 4) + 0; omega
    · show j.val = win3_1.index t (2 : Fin 4) * 2048 + j.val; omega
    · show d.val = win3_1.index t (3 : Fin 4) * 64 + d.val; omega
  · refine bias_entry V c t _ _ ?_ ?_ ?_ ?_
    · show win3_5.index t (0 : Fin 4) * 1 + 1 * (y 0).val = win3_3.index t (0 : Fin 4) + 0; omega
    · show win3_5.index t (1 : Fin 4) * 1 + 1 * (y 1).val = win3_3.index t (1 : Fin 4) + 0; omega
    · show win3_5.index t (2 : Fin 4) * 512 + 1 * (y 2).val = win3_3.index t (2 : Fin 4) * 512 + (y 2).val; omega
    · show j.val = win3_3.index t (3 : Fin 4) * 2048 + j.val; omega
  · show win3_5.index t (3 : Fin 4) * 2048 + 1 * (y 3).val = (y 3).val; omega

/-- Point t writes back its block of the context of the whole arrays. -/
theorem ctx_written_back (c : Dev nD) (t : Fin cfg3.N) :
    (dat3 (F := Ideal) V c).flushed 4 t
      = ((cfg3.win 4).blk t).view.read (Elt Ideal)
          (ctx (attn (scores (V c main_v5) (V c main_v6) (V c main_arg3))) (V c main_v7)) := by
  show (cfg3.win 4).cut (grid3.coords t) ((dat3 V c).after 4 t) = _
  rw [after3_4]
  unfold out3_4
  rw [View.canon_unit_zero zero_offsets4]
  simp only [View.ld_unit_zero (S := S1x1x512x64) zero_offsets4, View.ld_unit_zero (S := S1x1x2048x64) zero_offsets4,
    View.ld_unit_zero (S := S1x1x512x2048) zero_offsets4]
  obtain ⟨a0, a1, a2, a3, b0, b1, b2, b3, c0, c1, c2, c3, d0, d1, d2, d3, f0, f1, f2, f3, -⟩ := block_indices t
  funext y
  have hy0 : (y 0).val < 1 := (y 0).isLt
  have hy1 : (y 1).val < 1 := (y 1).isLt
  show k3_pay1 (k3_pay2 (iblk3 V c 2 t)) (k3_pay4 (iblk3 V c 0 t) (iblk3 V c 1 t) (iblk3 V c 3 t)) y
    = ctx (attn (scores (V c main_v5) (V c main_v6) (V c main_arg3))) (V c main_v7) (((cfg3.win 4).blk t).view.emb y)
  refine ctx_entry (V c main_v5) (V c main_v6) (V c main_v7) (V c main_arg3) (iblk3 V c 0 t) (iblk3 V c 1 t) (iblk3 V c 2 t)
    (iblk3 V c 3 t) y (((cfg3.win 4).blk t).view.emb y) (fun d => ?_) (fun j d => ?_) (fun j d => ?_) (fun j => ?_) ?_
  · refine query_row V c t _ _ ?_ ?_ ?_ ?_
    · show win3_4.index t (0 : Fin 4) * 1 + 1 * (y 0).val = win3_0.index t (0 : Fin 4) + 0; omega
    · show win3_4.index t (1 : Fin 4) * 1 + 1 * (y 1).val = win3_0.index t (1 : Fin 4) + 0; omega
    · show win3_4.index t (2 : Fin 4) * 512 + 1 * (y 2).val = win3_0.index t (2 : Fin 4) * 512 + (y 2).val; omega
    · show d.val = win3_0.index t (3 : Fin 4) * 64 + d.val; omega
  · refine key_row V c t _ _ ?_ ?_ ?_ ?_
    · show win3_4.index t (0 : Fin 4) * 1 + 1 * (y 0).val = win3_1.index t (0 : Fin 4) + 0; omega
    · show win3_4.index t (1 : Fin 4) * 1 + 1 * (y 1).val = win3_1.index t (1 : Fin 4) + 0; omega
    · show j.val = win3_1.index t (2 : Fin 4) * 2048 + j.val; omega
    · show d.val = win3_1.index t (3 : Fin 4) * 64 + d.val; omega
  · refine value_row V c t _ _ ?_ ?_ ?_ ?_
    · show win3_4.index t (0 : Fin 4) * 1 + 1 * (y 0).val = win3_2.index t (0 : Fin 4) + 0; omega
    · show win3_4.index t (1 : Fin 4) * 1 + 1 * (y 1).val = win3_2.index t (1 : Fin 4) + 0; omega
    · show j.val = win3_2.index t (2 : Fin 4) * 2048 + j.val; omega
    · show d.val = win3_2.index t (3 : Fin 4) * 64 + d.val; omega
  · refine bias_entry V c t _ _ ?_ ?_ ?_ ?_
    · show win3_4.index t (0 : Fin 4) * 1 + 1 * (y 0).val = win3_3.index t (0 : Fin 4) + 0; omega
    · show win3_4.index t (1 : Fin 4) * 1 + 1 * (y 1).val = win3_3.index t (1 : Fin 4) + 0; omega
    · show win3_4.index t (2 : Fin 4) * 512 + 1 * (y 2).val = win3_3.index t (2 : Fin 4) * 512 + (y 2).val; omega
    · show j.val = win3_3.index t (3 : Fin 4) * 2048 + j.val; omega
  · show win3_4.index t (3 : Fin 4) * 64 + 1 * (y 3).val = (y 3).val; omega

end Cert.Attn.KAttnBlocks

end
-- ==== Proof.KAttn.lean ====
/-
  The attention kernel, for any contents of its arrays at entry: its three output arrays end holding the scores,
  the attention weights and the context of the query, key, value and bias arrays.  Each grid point writes back its
  block of those whole-array functions, and the 128 points' blocks cover each output array.
-/
import proofs.«131576_j2379411882045_2_alg».proof.Proof.Gen.KernelIdeal.Frame
import proofs.«131576_j2379411882045_2_alg».proof.Proof.Spec
import proofs.«131576_j2379411882045_2_alg».proof.Proof.KAttnBlocks

noncomputable section

namespace Cert.Attn.KAttn
open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem final_scores (c : Dev nD) :
    (dat3 (F := Ideal) V c).arrAt 6 cfg3.N = Cert.Attn.scores (V c main_v5) (V c main_v6) (V c main_arg3) := by
  exact (dat3 (F := Ideal) V c).arrAt_eq_of_cover 6 (Cert.Attn.scores (V c main_v5) (V c main_v6) (V c main_arg3))
    (fun t _ => Cert.Attn.KAttnBlocks.scores_written_back V c t) Cert.Attn.KAttnIdx.every_score_written

theorem final_attn (c : Dev nD) :
    (dat3 (F := Ideal) V c).arrAt 5 cfg3.N
      = Cert.Attn.attn (Cert.Attn.scores (V c main_v5) (V c main_v6) (V c main_arg3)) := by
  exact (dat3 (F := Ideal) V c).arrAt_eq_of_cover 5
    (Cert.Attn.attn (Cert.Attn.scores (V c main_v5) (V c main_v6) (V c main_arg3)))
    (fun t _ => Cert.Attn.KAttnBlocks.attn_written_back V c t) Cert.Attn.KAttnIdx.every_attn_entry_written

theorem final_ctx (c : Dev nD) :
    (dat3 (F := Ideal) V c).arrAt 4 cfg3.N
      = Cert.Attn.ctx (Cert.Attn.attn (Cert.Attn.scores (V c main_v5) (V c main_v6) (V c main_arg3))) (V c main_v7) := by
  exact (dat3 (F := Ideal) V c).arrAt_eq_of_cover 4
    (Cert.Attn.ctx (Cert.Attn.attn (Cert.Attn.scores (V c main_v5) (V c main_v6) (V c main_arg3))) (V c main_v7))
    (fun t _ => Cert.Attn.KAttnBlocks.ctx_written_back V c t) Cert.Attn.KAttnIdx.every_ctx_entry_written

end Cert.Attn.KAttn

end
-- ==== Proof.KOutPieces.lean ====
/-
  The output projection's body, case by case, as a value.

  At a grid point (b, h) the body holds three blocks: the head's context rows x0, the head's rows of the output
  matrix x1, and the output block. At the first head of a batch member (h = 0) it first stores the zero block into the
  output block; in every case it then reads the output block, adds to it the product of x0 by x1, and stores the sum
  back. So what it leaves is the accumulation step applied to the zero block (first head) or to what the output block
  held before (later heads).
-/
import proofs.«131576_j2379411882045_2_alg».proof.Proof.Gen.KernelIdeal.Frame
import Idealize.ShloMosaic.Lib.Pipeline.Value

noncomputable section

namespace Cert.Attn.KOut
open Idealize.ShloMosaic Idealize.ShloMosaic.TcCoe Idealize.SL.Sem Idealize.ShloMosaic.Tactic
open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- A later head: the body leaves the accumulation step applied to what the output block held. -/
theorem out_B (c : Dev nD) (i : grid4.Coords) (a2 : Memref sig .tc .vmem S1x1x2048x64 .bf16) (h2 : a2.IsWhole)
    (a3 : Memref sig .tc .vmem S64x1024 .bf16) (h3 : a3.IsWhole) (a4 : Memref sig .tc .vmem S1x2048x1024 .f32) (h4 : a4.IsWhole)
    (hc : ¬cond4_0 i) (x0 : Vec F S1x1x2048x64 .bf16) (x1 : Vec F S64x1024 .bf16) (xo : Vec F S1x2048x1024 .f32) :
    out4_B_2 c i a2 h2 a3 h3 a4 h4 hc x0 x1 xo = k4_pay2 x0 x1 xo := by
  unfold out4_B_2
  rw [View.read_writes_eq_canon _ _ _ (cover4_B_2 c i a2 h2 a3 h3 a4 h4 hc x0 x1 xo)]
  unfold kernelRun4_B
  dsimp only
  sl_unfold_words
  rw [View.canon_unit_zero zeros3]
  simp only [View.readAt_eq_ld, h2.read_unread, h3.read_unread, h4.read_unread, View.ld_unit_zero (S := S1x1x2048x64) zeros4,
    View.ld_unit_zero (S := S64x1024) zeros2, View.ld_unit_zero (S := S1x2048x1024) zeros3]

/-- The first head of a batch member: the body leaves the accumulation step applied to the zero block. -/
theorem out_A (c : Dev nD) (i : grid4.Coords) (a2 : Memref sig .tc .vmem S1x1x2048x64 .bf16) (h2 : a2.IsWhole)
    (a3 : Memref sig .tc .vmem S64x1024 .bf16) (h3 : a3.IsWhole) (a4 : Memref sig .tc .vmem S1x2048x1024 .f32) (h4 : a4.IsWhole)
    (hc : cond4_0 i) (x0 : Vec F S1x1x2048x64 .bf16) (x1 : Vec F S64x1024 .bf16) :
    out4_A_2 c i a2 h2 a3 h3 a4 h4 hc x0 x1 = k4_pay2 x0 x1 k4_pay1 := by
  unfold out4_A_2
  rw [View.read_writes_eq_canon _ _ _ (cover4_A_2 c i a2 h2 a3 h3 a4 h4 hc x0 x1)]
  unfold kernelRun4_A
  dsimp only
  sl_unfold_words
  rw [View.canon_cons_unit_zero (S := S1x2048x1024) zeros3, View.readCov_unit_zero (S := S1x2048x1024) _ zeros3]
  simp only [View.readAt_eq_ld, h2.read_unread, h3.read_unread, View.ld_unit_zero (S := S1x1x2048x64) zeros4,
    View.ld_unit_zero (S := S64x1024) zeros2]

end Cert.Attn.KOut

end
-- ==== Proof.KOutPay.lean ====
/-
  The accumulation step of the output projection, read at an entry, at the ideal values.

  The step takes the head's context rows x0 (a [1, 1, 2048, 64] block: row s, lane d), the head's rows of the output
  matrix x1 (a [64, 1024] block: lane d, output feature n) and the output block xo ([1, 2048, 1024]), and leaves

      xo (0, s, n) + ∑_d x0 (0, 0, s, d) · x1 (d, n).

  The blocks' unit axes are cast away before the product and back after it; a cast keeps the row-major position, so
  entry (0, s, n) of a [1, 2048, 1024] block is entry (s, n) of the [2048, 1024] matrix, and entry (0, 0, s, d) of a
  [1, 1, 2048, 64] block is entry (s, d) of the [2048, 64] matrix. The product is a plain one into the zero matrix.
  The zero block has 0 at every entry.
-/
import proofs.«131576_j2379411882045_2_alg».proof.Proof.Gen.KernelIdeal.Skeleton
import proofs.«131576_j2379411882045_2_alg».proof.Proof.LibPlainDot
import Idealize.ShloMosaic.Lib.Pipeline.Value
import Idealize.ShloMosaic.Lib.ValueIdx
import Idealize.ShloMosaic.PureOps.Ideal.Laws

noncomputable section

namespace Cert.Attn.KOut
open Idealize.ShloMosaic Idealize.ShloMosaic.ValueIdx
open Cert.KernelIdeal Cert.KernelIdeal.Gen

/-- The product contracts the left operand's columns against the right operand's rows, with no batch axis: the plain
    product of a 2048 × 64 by a 64 × 1024 matrix. -/
theorem dot_eq_plain : dot_S2048x64_S64x1024_S2048x1024_1_0_0_1_n_n = DotDims.plain 2048 64 1024 := rfl

/-- Entry (0, s, n) of a [1, 2048, 1024] block made from a [2048, 1024] matrix is the matrix's entry (s, n). -/
theorem cast_add_unit {α : Type} (x : S2048x1024.Idx → α) (h : S2048x1024.ShapeCasts S1x2048x1024) (s : Fin 2048) (n : Fin 1024) :
    shapeCast S1x2048x1024 x h (ix3 (0 : Fin 1) s n) = x (ix2 s n) :=
  shapeCast_apply x h _ _ (by
    rw [Shape.rowMajor_val_two, Shape.rowMajor_val_three]
    show s.val * 1024 + n.val = ((0 : Fin 1).val * 2048 + s.val) * 1024 + n.val
    simp)

/-- Entry (s, n) of the [2048, 1024] matrix made from a [1, 2048, 1024] block is the block's entry (0, s, n). -/
theorem cast_drop_unit {α : Type} (x : S1x2048x1024.Idx → α) (h : S1x2048x1024.ShapeCasts S2048x1024) (s : Fin 2048) (n : Fin 1024) :
    shapeCast S2048x1024 x h (ix2 s n) = x (ix3 (0 : Fin 1) s n) :=
  shapeCast_apply x h _ _ (by
    rw [Shape.rowMajor_val_two, Shape.rowMajor_val_three]
    show ((0 : Fin 1).val * 2048 + s.val) * 1024 + n.val = s.val * 1024 + n.val
    simp)

/-- Entry (s, d) of the [2048, 64] matrix made from a [1, 1, 2048, 64] block is the block's entry (0, 0, s, d). -/
theorem cast_drop_units {α : Type} (x : S1x1x2048x64.Idx → α) (h : S1x1x2048x64.ShapeCasts S2048x64) (s : Fin 2048) (d : Fin 64) :
    shapeCast S2048x64 x h (ix2 s d) = x (ix4 (0 : Fin 1) (0 : Fin 1) s d) :=
  shapeCast_apply x h _ _ (by
    rw [Shape.rowMajor_val_two, Shape.rowMajor_val_four]
    show ((((0 : Fin 1).val * 1 + (0 : Fin 1).val) * 2048 + s.val) * 64 + d.val) = s.val * 64 + d.val
    simp)

/-- The zero block has 0 at every entry. -/
theorem pay1_apply (s : Fin 2048) (n : Fin 1024) : k4_pay1 (F := Ideal) (ix3 (0 : Fin 1) s n) = 0 := by
  unfold k4_pay1
  refine (cast_add_unit _ _ s n).trans ?_
  exact Ideal.ofBits_zero_f32

/-- The accumulation step at entry (0, s, n): the output block's entry plus the row of x0 against the column of x1. -/
theorem pay2_apply (x0 : Vec Ideal S1x1x2048x64 .bf16) (x1 : Vec Ideal S64x1024 .bf16) (xo : Vec Ideal S1x2048x1024 .f32)
    (s : Fin 2048) (n : Fin 1024) :
    k4_pay2 x0 x1 xo (ix3 (0 : Fin 1) s n)
      = xo (ix3 (0 : Fin 1) s n) + ∑ d : Fin 64, x0 (ix4 (0 : Fin 1) (0 : Fin 1) s d) * x1 (ix2 d n) := by
  unfold k4_pay2
  refine (cast_add_unit _ _ s n).trans ?_
  refine (addf_apply _ _ (ix2 s n)).trans ?_
  refine congrArg₂ (· + ·) (cast_drop_unit xo _ s n) ?_
  refine (Cert.PlainDot.matmul_zero_plain_apply none _ _ s n).trans ?_
  refine Finset.sum_congr rfl fun d _ => ?_
  refine congrArg₂ (· * ·) (cast_drop_units x0 _ s d) ?_
  exact congrFun (shapeCast_self x1 _) (ix2 d n)

end Cert.Attn.KOut

end
-- ==== Proof.LibTileAccum.lean ====
/-
  A running total kept along tiles of `L` points each.

  The points `0, 1, 2, …` are cut into consecutive rows of `L` points. A total `a` is reset to the point's term at
  the first point of a row, is added to at every later point of the row, and at the row's last point an extra
  term `b` is added as well. Then at the last point of a row the total is the sum of that row's `L` terms plus `b`.
-/
import Mathlib.Algebra.BigOperators.Group.Finset.Basic

open scoped BigOperators

namespace Cert.Lib.TileAccum

/-- The position inside a row of the next point: back to `0` after the last position, one more otherwise. -/
theorem succ_mod (L n : ℕ) (hL : 2 ≤ L) : (n + 1) % L = if n % L = L - 1 then 0 else n % L + 1 := by
  have hr : n % L < L := Nat.mod_lt _ (by omega)
  have h1 : 1 % L = 1 := Nat.mod_eq_of_lt (by omega)
  rw [Nat.add_mod_eq_ite, h1]
  split_ifs <;> omega

/-- Before a row's last point the total is the sum of the row's terms up to the point. -/
theorem partial_eq {M : Type*} [AddCommMonoid M] (L N : ℕ) (hL : 2 ≤ L) (P a : ℕ → M)
    (h0 : 0 < N → a 0 = P 0)
    (hfirst : ∀ n, n + 1 < N → (n + 1) % L = 0 → a (n + 1) = P (n + 1))
    (hmid : ∀ n, n + 1 < N → (n + 1) % L ≠ 0 → (n + 1) % L ≠ L - 1 → a (n + 1) = a n + P (n + 1)) :
    ∀ n, n < N → n % L ≠ L - 1 → a n = ∑ k ∈ Finset.range (n % L + 1), P (n - n % L + k) := by
  intro n
  induction n with
  | zero =>
    intro hN _
    rw [Nat.zero_mod, Finset.sum_range_one]
    exact h0 hN
  | succ n ih =>
    intro hN hne
    have hs := succ_mod L n hL
    by_cases hz : (n + 1) % L = 0
    · rw [hz, Finset.sum_range_one]
      exact hfirst n hN hz
    · have hr : n % L ≠ L - 1 := fun h => hz (by rw [hs, if_pos h])
      rw [if_neg hr] at hs
      have hle : n % L ≤ n := Nat.mod_le _ _
      have e1 : n + 1 - (n % L + 1) = n - n % L := by omega
      have e2 : n - n % L + (n % L + 1) = n + 1 := by omega
      rw [hs, Finset.sum_range_succ, e1, e2, ← ih (by omega) hr]
      exact hmid n hN hz hne

/-- At a row's last point the total is the sum of the row's `L` terms plus the extra term. -/
theorem last_eq {M : Type*} [AddCommMonoid M] (L N : ℕ) (hL : 2 ≤ L) (P b a : ℕ → M)
    (h0 : 0 < N → a 0 = P 0)
    (hfirst : ∀ n, n + 1 < N → (n + 1) % L = 0 → a (n + 1) = P (n + 1))
    (hmid : ∀ n, n + 1 < N → (n + 1) % L ≠ 0 → (n + 1) % L ≠ L - 1 → a (n + 1) = a n + P (n + 1))
    (hlast : ∀ n, n + 1 < N → (n + 1) % L = L - 1 → a (n + 1) = (a n + P (n + 1)) + b (n + 1)) :
    ∀ n, n < N → n % L = L - 1 → a n = (∑ k ∈ Finset.range L, P (n - (L - 1) + k)) + b n := by
  intro n hN hn
  obtain ⟨m, rfl⟩ : ∃ m, n = m + 1 := by
    refine ⟨n - 1, ?_⟩
    have : n ≠ 0 := fun h => by rw [h, Nat.zero_mod] at hn; omega
    omega
  have hs := succ_mod L m hL
  have hr : m % L ≠ L - 1 := fun h => by rw [hs, if_pos h] at hn; omega
  rw [if_neg hr] at hs
  have hm : m % L + 1 = L - 1 := by omega
  have hle : m % L ≤ m := Nat.mod_le _ _
  have ih := partial_eq L N hL P a h0 hfirst hmid m (by omega) hr
  have eR : Finset.range L = Finset.range (m % L + 1 + 1) := congrArg Finset.range (by omega)
  have e1 : m + 1 - (L - 1) = m - m % L := by omega
  have e2 : m - m % L + (m % L + 1) = m + 1 := by omega
  rw [hlast m hN hn, e1, ih, eR, Finset.sum_range_succ _ (m % L + 1), e2]

/-- The same with rows of 43 points. -/
theorem last_eq_43 {M : Type*} [AddCommMonoid M] (N : ℕ) (P b a : ℕ → M)
    (h0 : 0 < N → a 0 = P 0)
    (hfirst : ∀ n, n + 1 < N → (n + 1) % 43 = 0 → a (n + 1) = P (n + 1))
    (hmid : ∀ n, n + 1 < N → (n + 1) % 43 ≠ 0 → (n + 1) % 43 ≠ 42 → a (n + 1) = a n + P (n + 1))
    (hlast : ∀ n, n + 1 < N → (n + 1) % 43 = 42 → a (n + 1) = (a n + P (n + 1)) + b (n + 1)) :
    ∀ n, n < N → n % 43 = 42 → a n = (∑ k ∈ Finset.range 43, P (n - 42 + k)) + b n :=
  last_eq 43 N (by omega) P b a h0 hfirst hmid hlast

end Cert.Lib.TileAccum
-- ==== Proof.KOut.lean ====
/-
  The output projection: what the output array holds after the region.

  The grid is (batch member b, head h), h running fastest, 32 points t = 16·b + h. At a point the body is handed the
  head's context block (rows s, lanes d of head h of member b), the head's 64 rows of the transposed output matrix
  (rows h·64 + d, all 1024 columns) and member b's output block, which stays in place over the member's 16 heads and is
  written back after the last of them. The first head stores ∑_d ctx(b,0,s,d)·WT(d,n) (the zero block plus the product);
  each later head adds ∑_d ctx(b,h,s,d)·WT(h·64+d,n) to what the block held. So after head 15 the block holds, at (s, n),
  the sum over the 16 heads and the 64 lanes: the merged-heads projection of member b. The two members' blocks tile
  the output array.
-/
import proofs.«131576_j2379411882045_2_alg».proof.Proof.Gen.KernelIdeal.Frame
import proofs.«131576_j2379411882045_2_alg».proof.Proof.Spec
import proofs.«131576_j2379411882045_2_alg».proof.Proof.KOutPieces
import proofs.«131576_j2379411882045_2_alg».proof.Proof.KOutPay
import proofs.«131576_j2379411882045_2_alg».proof.Proof.LibTileAccum
import Idealize.ShloMosaic.Lib.Pipeline.Value

noncomputable section

namespace Cert.Attn.KOut
open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The context array as the region finds it: [batch, head, position, lane]. -/
abbrev ctxA (c : Dev nD) : Sh.Idx → EReal := V c main_v8_0
/-- The transposed output matrix as the region finds it: [feature h·64 + d, output feature]. -/
abbrev wT (c : Dev nD) : Sw.Idx → EReal := V c main_v4

/-- The batch member of point k = 16·b + h, -/
def bOf (k : ℕ) : Fin 2 := ⟨k / 16 % 2, Nat.mod_lt _ (by omega)⟩
/-- and its head. -/
def hOf (k : ℕ) : Fin 16 := ⟨k % 16, Nat.mod_lt _ (by omega)⟩

theorem bOf_val (k : ℕ) : (bOf k).val = k / 16 % 2 := rfl
theorem hOf_val (k : ℕ) : (hOf k).val = k % 16 := rfl

/-- What point k adds to entry (s, n) of its member's block: its head's 64 lanes. -/
def term (c : Dev nD) (s : Fin 2048) (n : Fin 1024) (k : ℕ) : EReal :=
  ∑ d : Fin 64, ctxA V c (ix4 (bOf k) (hOf k) s d) * wT V c (ix2 (hd (hOf k) d) n)

/-- The three index maps over the grid: the context block is (t / 16, t % 16, 0, 0), the matrix block (t % 16, 0), the
    output block (t / 16, 0, 0). -/
theorem idx4 : ∀ t : Fin cfg4.N,
    win4_0.index t (0 : Fin 4) = t.val / 16 ∧ win4_0.index t (1 : Fin 4) = t.val % 16
    ∧ win4_0.index t (2 : Fin 4) = 0 ∧ win4_0.index t (3 : Fin 4) = 0
    ∧ win4_1.index t (0 : Fin 2) = t.val % 16 ∧ win4_1.index t (1 : Fin 2) = 0
    ∧ win4_2.index t (0 : Fin 3) = t.val / 16 ∧ win4_2.index t (1 : Fin 3) = 0 ∧ win4_2.index t (2 : Fin 3) = 0 :=
  (by decide +kernel : ∀ t : Fin grid4.N, _)

/-- The context block at point t holds rows and lanes of head t % 16 of member t / 16. -/
theorem ctx_blk (c : Dev nD) (t : Fin cfg4.N) (s : Fin 2048) (d : Fin 64)
    (x0 : Vec Ideal S1x1x2048x64 .bf16) (hx0 : x0 = iblk4 V c 0 t) :
    x0 (ix4 (0 : Fin 1) (0 : Fin 1) s d) = ctxA V c (ix4 (bOf t.val) (hOf t.val) s d) := by
  subst hx0
  obtain ⟨e0, e1, e2, e3, -⟩ := idx4 t
  have hN : t.val < 32 := lt_of_lt_of_eq t.isLt N_4
  unfold iblk4
  rw [View.read_apply]
  show ctxA V c _ = ctxA V c _
  refine congrArg (ctxA V c) (funext fun a => Fin.ext ?_)
  match a with
  | ⟨0, _⟩ => show win4_0.index t (0 : Fin 4) * 1 + 1 * (0 : Fin 1).val = t.val / 16 % 2; rw [e0]; simp; omega
  | ⟨1, _⟩ => show win4_0.index t (1 : Fin 4) * 1 + 1 * (0 : Fin 1).val = t.val % 16; rw [e1]; simp
  | ⟨2, _⟩ => show win4_0.index t (2 : Fin 4) * 2048 + 1 * s.val = s.val; rw [e2]; omega
  | ⟨3, _⟩ => show win4_0.index t (3 : Fin 4) * 64 + 1 * d.val = d.val; rw [e3]; omega

/-- The matrix block at point t holds rows (t % 16)·64 + d of the transposed output matrix. -/
theorem w_blk (c : Dev nD) (t : Fin cfg4.N) (d : Fin 64) (n : Fin 1024)
    (x1 : Vec Ideal S64x1024 .bf16) (hx1 : x1 = iblk4 V c 1 t) :
    x1 (ix2 d n) = wT V c (ix2 (hd (hOf t.val) d) n) := by
  subst hx1
  obtain ⟨-, -, -, -, e0, e1, -⟩ := idx4 t
  unfold iblk4
  rw [View.read_apply]
  show wT V c _ = wT V c _
  refine congrArg (wT V c) (funext fun a => Fin.ext ?_)
  match a with
  | ⟨0, _⟩ => show win4_1.index t (0 : Fin 2) * 64 + 1 * d.val = t.val % 16 * 64 + d.val; rw [e0]; omega
  | ⟨1, _⟩ => show win4_1.index t (1 : Fin 2) * 1024 + 1 * n.val = n.val; rw [e1]; omega

/-- The product of the two blocks at point t, at (s, n), is the point's term. -/
theorem blocks_term (c : Dev nD) (t : Fin cfg4.N) (s : Fin 2048) (n : Fin 1024)
    (x0 : Vec Ideal S1x1x2048x64 .bf16) (x1 : Vec Ideal S64x1024 .bf16) (hx0 : x0 = iblk4 V c 0 t) (hx1 : x1 = iblk4 V c 1 t) :
    ∑ d : Fin 64, x0 (ix4 (0 : Fin 1) (0 : Fin 1) s d) * x1 (ix2 d n) = term V c s n t.val :=
  Finset.sum_congr rfl fun d _ => congrArg₂ (· * ·) (ctx_blk V c t s d x0 hx0) (w_blk V c t d n x1 hx1)

/-- At a member's first head the block is left holding the point's term. -/
theorem step_first (c : Dev nD) (t : Fin cfg4.N) (h0 : t.val % 16 = 0) (s : Fin 2048) (n : Fin 1024) :
    outsAt4 V c t.val t.isLt (ix3 (0 : Fin 1) s n) = term V c s n t.val := by
  rw [outsAt4_A V c t h0,
    out_A (F := Ideal) c (grid4.coords t) (ms4_0 t) (hs4_0 t) (ms4_1 t) (hs4_1 t) (ms4_2 t) (hs4_2 t) ((hcond4_0 t).mpr h0)
      (iblk4 V c 0 t) (iblk4 V c 1 t),
    pay2_apply (iblk4 V c 0 t) (iblk4 V c 1 t) (k4_pay1 (F := Ideal)) s n, pay1_apply s n, zero_add]
  exact blocks_term V c t s n _ _ rfl rfl

/-- At a later head the point's term is added to what the point before left. -/
theorem step_later (c : Dev nD) (t : Fin cfg4.N) (h0 : ¬t.val % 16 = 0) (s : Fin 2048) (n : Fin 1024) :
    outsAt4 V c t.val t.isLt (ix3 (0 : Fin 1) s n)
      = outsAt4 V c (t.val - 1) (Nat.lt_of_le_of_lt (Nat.sub_le _ _) t.isLt) (ix3 (0 : Fin 1) s n) + term V c s n t.val := by
  rw [outsAt4_B V c t h0,
    out_B (F := Ideal) c (grid4.coords t) (ms4_0 t) (hs4_0 t) (ms4_1 t) (hs4_1 t) (ms4_2 t) (hs4_2 t)
      (fun h => h0 ((hcond4_0 t).mp h)) (iblk4 V c 0 t) (iblk4 V c 1 t)
      (outsAt4 V c (t.val - 1) (Nat.lt_of_le_of_lt (Nat.sub_le _ _) t.isLt)),
    pay2_apply (iblk4 V c 0 t) (iblk4 V c 1 t) (outsAt4 V c (t.val - 1) (Nat.lt_of_le_of_lt (Nat.sub_le _ _) t.isLt)) s n]
  exact congrArg _ (blocks_term V c t s n _ _ rfl rfl)

/-- Entry (s, n) of the block after point k (0 beyond the grid). -/
def acc (c : Dev nD) (s : Fin 2048) (n : Fin 1024) (k : ℕ) : EReal :=
  if hk : k < cfg4.N then outsAt4 V c k hk (ix3 (0 : Fin 1) s n) else 0

/-- After a member's last head the block holds the merged-heads projection of the member. -/
theorem last_head (c : Dev nD) (t : Fin cfg4.N) (h15 : t.val % 16 = 15) (s : Fin 2048) (n : Fin 1024) :
    outsAt4 V c t.val t.isLt (ix3 (0 : Fin 1) s n) = outTAt (ctxA V c) (wT V c) (bOf t.val) s n := by
  have hN : cfg4.N = 32 := N_4
  have ht : t.val < 32 := lt_of_lt_of_eq t.isLt hN
  have key := Cert.Lib.TileAccum.last_eq 16 cfg4.N (by omega) (term V c s n) (fun _ => 0) (acc V c s n)
    (fun hp => by
      unfold acc; rw [dif_pos hp]
      exact step_first V c ⟨0, hp⟩ rfl s n)
    (fun k hk hz => by
      unfold acc; rw [dif_pos hk]
      exact step_first V c ⟨k + 1, hk⟩ hz s n)
    (fun k hk hz _ => by
      unfold acc; rw [dif_pos hk, dif_pos (Nat.lt_of_succ_lt hk)]
      exact step_later V c ⟨k + 1, hk⟩ hz s n)
    (fun k hk hl => by
      unfold acc; rw [dif_pos hk, dif_pos (Nat.lt_of_succ_lt hk), add_zero]
      exact step_later V c ⟨k + 1, hk⟩ (by show ¬(k + 1) % 16 = 0; omega) s n)
    t.val t.isLt h15
  unfold acc at key
  rw [dif_pos t.isLt, add_zero] at key
  rw [key, Finset.sum_range]
  unfold outTAt
  refine Finset.sum_congr rfl fun h _ => ?_
  have hh : h.val < 16 := h.isLt
  have eb : bOf (t.val - (16 - 1) + h.val) = bOf t.val := Fin.ext (by rw [bOf_val, bOf_val]; omega)
  have eh : hOf (t.val - (16 - 1) + h.val) = h := Fin.ext (by rw [hOf_val]; omega)
  unfold term
  rw [eb, eh]

/-- What a member's last point writes back is the member's block of the merged-heads projection. -/
theorem flushed_at (c : Dev nD) (t : Fin cfg4.N) (h15 : t.val % 16 = 15) (y : S1x2048x1024.Idx) :
    outsAt4 V c t.val t.isLt y = outT (ctxA V c) (wT V c) (ix3 (bOf t.val) (y 1) (y 2)) := by
  obtain ⟨u, s, n, rfl⟩ : ∃ (u : Fin 1) (s : Fin 2048) (n : Fin 1024), y = ix3 u s n := ⟨y 0, y 1, y 2, eq_ix3 y⟩
  obtain rfl : u = 0 := Subsingleton.elim _ _
  exact (last_head V c t h15 s n).trans (outT_ix _ _ _ s n).symm

/-- What a flushing point writes back is its block of the merged-heads projection. -/
theorem flushed_eq (c : Dev nD) (t : Fin cfg4.N) (hf : (cfg4.win 2).flush t = true) :
    (dat4 V c).flushed 2 t = ((cfg4.win 2).blk t).view.read (Elt Ideal) (outT (ctxA V c) (wT V c)) := by
  have h15 : t.val % 16 = 15 := (flush4_2 t).mp hf
  obtain ⟨-, -, -, -, -, -, e0, e1, e2⟩ := idx4 t
  have ht : t.val < 32 := lt_of_lt_of_eq t.isLt N_4
  show (cfg4.win 2).cut (grid4.coords t) ((dat4 V c).after 2 t) = _
  rw [after4_2]
  funext y
  rw [View.read_apply]
  show outsAt4 V c t.val t.isLt y = outT (ctxA V c) (wT V c) (((cfg4.win 2).blk t).view.emb y)
  rw [flushed_at V c t h15 y]
  refine congrArg (outT (ctxA V c) (wT V c)) (funext fun a => Fin.ext ?_)
  have hy0 : (y 0).val < 1 := (y 0).isLt
  match a with
  | ⟨0, _⟩ => show t.val / 16 % 2 = win4_2.index t (0 : Fin 3) * 1 + 1 * (y 0).val; rw [e0]; omega
  | ⟨1, _⟩ => show (y 1).val = win4_2.index t (1 : Fin 3) * 2048 + 1 * (y 1).val; rw [e1]; omega
  | ⟨2, _⟩ => show (y 2).val = win4_2.index t (2 : Fin 3) * 1024 + 1 * (y 2).val; rw [e2]; omega

/-- Entry (b, s, n) of the output array lies in the block written back after member b's last head, point 16·b + 15. -/
theorem covered (i : S2x2048x1024.Idx) :
    ∃ t : Fin cfg4.N, (cfg4.win 2).flush t = true ∧ i ∈ ((cfg4.win 2).blk t).view.set := by
  have hi0 : (i 0).val < 2 := (i 0).isLt
  have hi1 : (i 1).val < 2048 := (i 1).isLt
  have hi2 : (i 2).val < 1024 := (i 2).isLt
  obtain ⟨t, ht⟩ : ∃ t : Fin cfg4.N, t.val = (i 0).val * 16 + 15 :=
    ⟨⟨(i 0).val * 16 + 15, lt_of_lt_of_eq (by omega : (i 0).val * 16 + 15 < 32) N_4.symm⟩, rfl⟩
  obtain ⟨-, -, -, -, -, -, e0, e1, e2⟩ := idx4 t
  refine ⟨t, (flush4_2 t).mpr (by omega), ?_⟩
  show i ∈ ((View.whole main_v9).slice (win4_2.rect t)).set
  rw [View.set_slice_whole, Rect.mem_set_unit]
  intro a
  match a with
  | ⟨0, _⟩ =>
    show win4_2.index t (0 : Fin 3) * 1 ≤ (i 0).val ∧ (i 0).val < win4_2.index t (0 : Fin 3) * 1 + 1
    rw [e0]; omega
  | ⟨1, _⟩ =>
    show win4_2.index t (1 : Fin 3) * 2048 ≤ (i 1).val ∧ (i 1).val < win4_2.index t (1 : Fin 3) * 2048 + 2048
    rw [e1]; omega
  | ⟨2, _⟩ =>
    show win4_2.index t (2 : Fin 3) * 1024 ≤ (i 2).val ∧ (i 2).val < win4_2.index t (2 : Fin 3) * 1024 + 1024
    rw [e2]; omega

theorem final_out (c : Dev nD) :
    (dat4 (F := Ideal) V c).arrAt 2 cfg4.N = Cert.Attn.outT (V c main_v8_0) (V c main_v4) :=
  (dat4 V c).arrAt_eq_of_cover 2 (outT (ctxA V c) (wT V c)) (fun t hf => flushed_eq V c t hf) fun i => covered i

end Cert.Attn.KOut

end
-- ==== Proof.KChain.lean ====
/-
  The kernel program's three results as functions of the launched arguments.

  The program is five regions in a row.  The contents of every buffer at each boundary between them are a fold from
  the launch memory: a region changes only its own output arrays, and leaves there what its grid points wrote back.
  Reading the fold backwards from the last boundary: the output is the merged-heads projection (against the
  transposed output matrix) of the context, the context and the attention weights and the scores are the attention
  region's three outputs, computed from the three head-major projections, each the output of its own region, computed
  from a launched activation and a launched weight matrix.  Composed, the three results are the specification's
  `out`, `attn` and `scores` of the launched arguments.
-/
import proofs.«131576_j2379411882045_2_alg».proof.Proof.Gen.KernelIdeal.Frame
import proofs.«131576_j2379411882045_2_alg».proof.Proof.Spec
import proofs.«131576_j2379411882045_2_alg».proof.Proof.KHost
import proofs.«131576_j2379411882045_2_alg».proof.Proof.KProj
import proofs.«131576_j2379411882045_2_alg».proof.Proof.KAttn
import proofs.«131576_j2379411882045_2_alg».proof.Proof.KOut

noncomputable section

namespace Cert.Attn.KChain
open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## The launched arguments, as plain functions -/

abbrev aQ (c : Dev nD) : Cert.Attn.Sx.Idx → EReal := m ((c : Thread nD τ).loc main_arg0)
abbrev aK (c : Dev nD) : Cert.Attn.Sx.Idx → EReal := m ((c : Thread nD τ).loc main_arg1)
abbrev aV (c : Dev nD) : Cert.Attn.Sx.Idx → EReal := m ((c : Thread nD τ).loc main_arg2)
abbrev aP (c : Dev nD) : Cert.Attn.Ss.Idx → EReal := m ((c : Thread nD τ).loc main_arg3)
abbrev wQ (c : Dev nD) : Cert.Attn.Sw.Idx → EReal := m ((c : Thread nD τ).loc main_arg4)
abbrev wK (c : Dev nD) : Cert.Attn.Sw.Idx → EReal := m ((c : Thread nD τ).loc main_arg5)
abbrev wV (c : Dev nD) : Cert.Attn.Sw.Idx → EReal := m ((c : Thread nD τ).loc main_arg6)
abbrev wO (c : Dev nD) : Cert.Attn.Sw.Idx → EReal := m ((c : Thread nD τ).loc main_arg7)

/-- The scores of the launched arguments. -/
def sc (c : Dev nD) : Cert.Attn.Ss.Idx → EReal :=
  Cert.Attn.scores (Cert.Attn.proj (aQ m c) (wQ m c)) (Cert.Attn.proj (aK m c) (wK m c)) (aP m c)
/-- The output of the launched arguments. -/
def ou (c : Dev nD) : Cert.Attn.Sx.Idx → EReal :=
  Cert.Attn.out (Cert.Attn.ctx (Cert.Attn.attn (sc m c)) (Cert.Attn.proj (aV m c) (wV m c))) (wO m c)

/-! ## The three projections -/

/-- After the first region the query projection's array is the head-major projection of the launched arguments. -/
theorem q_eq (c : Dev nD) :
    (W2 (F := Ideal) m ρ c (Proc.devRef .tc main_v5) : Cert.Attn.Sh.Idx → EReal) = Cert.Attn.proj (aQ m c) (wQ m c) :=
  (W2_arr m ρ c 2).trans ((Cert.Attn.KProj.final0 (V1 m ρ) c).trans
    (congrArg₂ Cert.Attn.proj (Cert.Attn.KHost.W1_arg0 m ρ c) (Cert.Attn.KHost.W1_v0 m ρ c)))

theorem k_eq (c : Dev nD) :
    (W3 (F := Ideal) m ρ c (Proc.devRef .tc main_v6) : Cert.Attn.Sh.Idx → EReal) = Cert.Attn.proj (aK m c) (wK m c) :=
  (W3_arr m ρ c 2).trans ((Cert.Attn.KProj.final1 (V2 m ρ) c).trans
    (congrArg₂ Cert.Attn.proj
      ((W2_of_ne m ρ c main_arg1 (by decide)).trans (Cert.Attn.KHost.W1_arg1 m ρ c))
      ((W2_of_ne m ρ c main_v1 (by decide)).trans (Cert.Attn.KHost.W1_v1 m ρ c))))

theorem v_eq (c : Dev nD) :
    (W4 (F := Ideal) m ρ c (Proc.devRef .tc main_v7) : Cert.Attn.Sh.Idx → EReal) = Cert.Attn.proj (aV m c) (wV m c) :=
  (W4_arr m ρ c 2).trans ((Cert.Attn.KProj.final2 (V3 m ρ) c).trans
    (congrArg₂ Cert.Attn.proj
      ((W3_of_ne m ρ c main_arg2 (by decide)).trans ((W2_of_ne m ρ c main_arg2 (by decide)).trans (Cert.Attn.KHost.W1_arg2 m ρ c)))
      ((W3_of_ne m ρ c main_v2 (by decide)).trans ((W2_of_ne m ρ c main_v2 (by decide)).trans (Cert.Attn.KHost.W1_v2 m ρ c)))))

/-! ## What the attention region is entered with -/

theorem in_q (c : Dev nD) : (V4 (F := Ideal) m ρ c main_v5 : Cert.Attn.Sh.Idx → EReal) = Cert.Attn.proj (aQ m c) (wQ m c) :=
  (W4_of_ne m ρ c main_v5 (by decide)).trans ((W3_of_ne m ρ c main_v5 (by decide)).trans (q_eq m ρ c))
theorem in_k (c : Dev nD) : (V4 (F := Ideal) m ρ c main_v6 : Cert.Attn.Sh.Idx → EReal) = Cert.Attn.proj (aK m c) (wK m c) :=
  (W4_of_ne m ρ c main_v6 (by decide)).trans (k_eq m ρ c)
theorem in_v (c : Dev nD) : (V4 (F := Ideal) m ρ c main_v7 : Cert.Attn.Sh.Idx → EReal) = Cert.Attn.proj (aV m c) (wV m c) :=
  v_eq m ρ c
theorem in_p (c : Dev nD) : (V4 (F := Ideal) m ρ c main_arg3 : Cert.Attn.Ss.Idx → EReal) = aP m c :=
  (W4_of_ne m ρ c main_arg3 (by decide)).trans ((W3_of_ne m ρ c main_arg3 (by decide)).trans
    ((W2_of_ne m ρ c main_arg3 (by decide)).trans (Cert.Attn.KHost.W1_arg3 m ρ c)))

/-! ## The attention region's three outputs -/

theorem scores_eq (c : Dev nD) :
    (W5 (F := Ideal) m ρ c (Proc.devRef .tc main_v8_2) : Cert.Attn.Ss.Idx → EReal) = sc m c :=
  (W5_arr m ρ c 6).trans ((Cert.Attn.KAttn.final_scores (V4 m ρ) c).trans (by
    unfold sc; rw [in_q m ρ c, in_k m ρ c, in_p m ρ c]))

theorem attn_eq (c : Dev nD) :
    (W5 (F := Ideal) m ρ c (Proc.devRef .tc main_v8_1) : Cert.Attn.Ss.Idx → EReal) = Cert.Attn.attn (sc m c) :=
  (W5_arr m ρ c 5).trans ((Cert.Attn.KAttn.final_attn (V4 m ρ) c).trans (by
    unfold sc; rw [in_q m ρ c, in_k m ρ c, in_p m ρ c]))

theorem ctx_eq (c : Dev nD) :
    (W5 (F := Ideal) m ρ c (Proc.devRef .tc main_v8_0) : Cert.Attn.Sh.Idx → EReal)
      = Cert.Attn.ctx (Cert.Attn.attn (sc m c)) (Cert.Attn.proj (aV m c) (wV m c)) :=
  (W5_arr m ρ c 4).trans ((Cert.Attn.KAttn.final_ctx (V4 m ρ) c).trans (by
    unfold sc; rw [in_q m ρ c, in_k m ρ c, in_p m ρ c, in_v m ρ c]))

/-! ## The output projection -/

/-- The transposed output matrix as the last region finds it: entry (e, n) is the launched matrix at (n, e). -/
theorem in_wT (c : Dev nD) (e n : Fin 1024) :
    (V5 (F := Ideal) m ρ c main_v4 : Cert.Attn.Sw.Idx → EReal) (ix2 e n) = wO m c (ix2 n e) :=
  (congrFun ((W5_of_ne m ρ c main_v4 (by decide)).trans ((W4_of_ne m ρ c main_v4 (by decide)).trans
    ((W3_of_ne m ρ c main_v4 (by decide)).trans (W2_of_ne m ρ c main_v4 (by decide))))) (ix2 e n)).trans
    (Cert.Attn.KHost.W1_v4 m ρ c e n)

/-! ## The three results at the last boundary -/

theorem out_eq (c : Dev nD) :
    (W6 (F := Ideal) m ρ c (Proc.devRef .tc main_v9) : Cert.Attn.Sx.Idx → EReal) = ou m c :=
  (W6_arr m ρ c 2).trans ((Cert.Attn.KOut.final_out (V5 m ρ) c).trans (by
    rw [Cert.Attn.outT_eq_out _ _ (wO m c) (in_wT m ρ c)]
    exact congrArg (Cert.Attn.out · (wO m c)) (ctx_eq m ρ c)))

theorem res_attn_eq (c : Dev nD) :
    (W6 (F := Ideal) m ρ c (Proc.devRef .tc main_v8_1) : Cert.Attn.Ss.Idx → EReal) = Cert.Attn.attn (sc m c) :=
  (W6_of_ne m ρ c main_v8_1 (by decide)).trans (attn_eq m ρ c)

theorem res_scores_eq (c : Dev nD) :
    (W6 (F := Ideal) m ρ c (Proc.devRef .tc main_v8_2) : Cert.Attn.Ss.Idx → EReal) = sc m c :=
  (W6_of_ne m ρ c main_v8_2 (by decide)).trans (scores_eq m ρ c)

end Cert.Attn.KChain

end
-- ==== Proof.KRun.lean ====
/-
  The kernel program's run with its results named.

  Every weakly fair execution of the program from a memory with zero counters terminates, nothing faulting, and in
  the final state every buffer that outlives the run holds the contents of the last boundary of the fold through the
  program's segments (one stretch of host operations, then five regions).  In particular the three result arrays hold
  that boundary's contents at their references, and the eight arguments hold what they were launched with.
-/
import proofs.«131576_j2379411882045_2_alg».proof.Proof.Gen.KernelIdeal.Frame

set_option maxRecDepth 16384

noncomputable section

namespace Cert.Attn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with each result array and each argument array named in the final state. -/
theorem run_values : θ_run defs (onTc (τ := τ) (main (F := F))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_v8_1) = W6 m ρ c (Proc.devRef .tc main_v8_1)
      ∧ r.2.mem ((c.tc : Thread nD τ).loc main_v8_2) = W6 m ρ c (Proc.devRef .tc main_v8_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v9 (by decide)),
       h c _ (mem_uc main_v8_1 (by decide)),
       h c _ (mem_uc main_v8_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Attn.KRun

end
-- ==== Proof.RefProj.lean ====
/-
  A projected activation of the reference, read at an index.

  The reference contracts the feature axis of an activation X[b, s, m] with a weight W[e, m] to Y[b, s, e], views the
  1024 features e as 16 heads of 64 lanes (e = h·64 + d) and moves the head axis in front of the position axis.  At
  (b, h, s, d) the result is therefore  ∑ₘ X(b, s, m) · W(h·64 + d, m).
-/
import proofs.«131576_j2379411882045_2_alg».proof.Proof.Gen.ReferenceIdeal.Read
import proofs.«131576_j2379411882045_2_alg».proof.Proof.Spec

noncomputable section

namespace Cert.Attn.Ref

open Idealize.ShloMosaic Idealize.ShloMosaic.TcCoe Idealize.SL.Sem Idealize.ShloMosaic.ValueIdx
open Cert.ReferenceIdeal Cert.ReferenceIdeal.Read

/-- Row-major position of (b, s, h, d) in [2, 2048, 16, 64], read as [2, 2048, 1024]: (b, s, h·64 + d). -/
theorem split_idx (b : Fin 2) (h : Fin 16) (s : Fin 2048) (d : Fin 64) :
    idx_main_v1 (ix4 b s h d) = ix3 b s (Cert.Attn.hd h d) := by
  have hb := b.isLt; have hh := h.isLt; have hs := s.isLt; have hd := d.isLt
  funext a
  apply Fin.ext
  match a with
  | ⟨0, _⟩ =>
    show (((b.val * 2048 + s.val) * 16 + h.val) * 64 + d.val) / 2097152 = b.val
    omega
  | ⟨1, _⟩ =>
    show (((b.val * 2048 + s.val) * 16 + h.val) * 64 + d.val) / 1024 % 2048 = s.val
    omega
  | ⟨2, _⟩ =>
    show (((b.val * 2048 + s.val) * 16 + h.val) * 64 + d.val) % 1024 = h.val * 64 + d.val
    omega

/-- Moving the head axis in front: (b, h, s, d) is read at (b, s, h, d). -/
theorem swap_idx (b : Fin 2) (h : Fin 16) (s : Fin 2048) (d : Fin 64) :
    idx_main_v2 (ix4 b h s d) = ix4 b s h d :=
  funext fun a => Fin.ext (by
    match a with
    | ⟨0, _⟩ => rfl
    | ⟨1, _⟩ => rfl
    | ⟨2, _⟩ => rfl
    | ⟨3, _⟩ => rfl)

theorem lidx_proj (b : Fin 2) (s : Fin 2048) (e : Fin 1024) (k : Fin 1024) :
    lidx_main_v0 (ix3 b s e) k = ix3 b s k :=
  funext fun a => Fin.ext (by
    match a with
    | ⟨0, _⟩ => rfl
    | ⟨1, _⟩ => rfl
    | ⟨2, _⟩ => rfl)

theorem ridx_proj (b : Fin 2) (s : Fin 2048) (e : Fin 1024) (k : Fin 1024) :
    ridx_main_v0 (ix3 b s e) k = ix2 e k :=
  funext fun a => Fin.ext (by
    match a with
    | ⟨0, _⟩ => rfl
    | ⟨1, _⟩ => rfl)

/-- The first projected activation at (b, h, s, d). -/
theorem proj_q (x : (⟨S2x2048x1024, .f32⟩ : BufTy).Contents (Elt Ideal)) (w : (⟨S1024x1024, .f32⟩ : BufTy).Contents (Elt Ideal))
    (b : Fin 2) (h : Fin 16) (s : Fin 2048) (d : Fin 64) :
    val_main_v2 (F := Ideal) x w (ix4 b h s d) = Cert.Attn.projAt x w b h s d := by
  rw [val_main_v2_apply, swap_idx, val_main_v1_apply, split_idx, val_main_v0_apply]
  simp only [lidx_proj, ridx_proj]
  rfl

/-- The second projected activation at (b, h, s, d): the same three operations. -/
theorem proj_k (x : (⟨S2x2048x1024, .f32⟩ : BufTy).Contents (Elt Ideal)) (w : (⟨S1024x1024, .f32⟩ : BufTy).Contents (Elt Ideal))
    (b : Fin 2) (h : Fin 16) (s : Fin 2048) (d : Fin 64) :
    val_main_v5 (F := Ideal) x w (ix4 b h s d) = Cert.Attn.projAt x w b h s d := by
  rw [val_main_v5_apply, show idx_main_v5 (ix4 b h s d) = ix4 b s h d from swap_idx b h s d, val_main_v4_apply,
    show idx_main_v4 (ix4 b s h d) = ix3 b s (Cert.Attn.hd h d) from split_idx b h s d, val_main_v3_apply]
  simp only [show ∀ k, lidx_main_v3 (ix3 b s (Cert.Attn.hd h d)) k = ix3 b s k from lidx_proj b s _,
    show ∀ k, ridx_main_v3 (ix3 b s (Cert.Attn.hd h d)) k = ix2 (Cert.Attn.hd h d) k from ridx_proj b s _]
  rfl

/-- The third projected activation at (b, h, s, d): the same three operations. -/
theorem proj_v (x : (⟨S2x2048x1024, .f32⟩ : BufTy).Contents (Elt Ideal)) (w : (⟨S1024x1024, .f32⟩ : BufTy).Contents (Elt Ideal))
    (b : Fin 2) (h : Fin 16) (s : Fin 2048) (d : Fin 64) :
    val_main_v8 (F := Ideal) x w (ix4 b h s d) = Cert.Attn.projAt x w b h s d := by
  rw [val_main_v8_apply, show idx_main_v8 (ix4 b h s d) = ix4 b s h d from swap_idx b h s d, val_main_v7_apply,
    show idx_main_v7 (ix4 b s h d) = ix3 b s (Cert.Attn.hd h d) from split_idx b h s d, val_main_v6_apply]
  simp only [show ∀ k, lidx_main_v6 (ix3 b s (Cert.Attn.hd h d)) k = ix3 b s k from lidx_proj b s _,
    show ∀ k, ridx_main_v6 (ix3 b s (Cert.Attn.hd h d)) k = ix2 (Cert.Attn.hd h d) k from ridx_proj b s _]
  rfl

end Cert.Attn.Ref

end
-- ==== Proof.RefScores.lean ====
/-
  The reference's scores, read at an index: the contraction of the projected queries and keys over the 64 lanes of a
  head, times 1/8, plus the bias.
-/
import proofs.«131576_j2379411882045_2_alg».proof.Proof.RefProj

noncomputable section

namespace Cert.Attn.Ref

open Idealize.ShloMosaic Idealize.ShloMosaic.TcCoe Idealize.SL.Sem Idealize.ShloMosaic.ValueIdx
open Cert.ReferenceIdeal Cert.ReferenceIdeal.Read

variable (x0 x1 : (⟨S2x2048x1024, .f32⟩ : BufTy).Contents (Elt Ideal))
  (x3 : (⟨S2x16x2048x2048, .f32⟩ : BufTy).Contents (Elt Ideal))
  (x4 x5 : (⟨S1024x1024, .f32⟩ : BufTy).Contents (Elt Ideal))

theorem lidx_qk (b : Fin 2) (h : Fin 16) (i j : Fin 2048) (d : Fin 64) :
    lidx_main_v9 (ix4 b h i j) d = ix4 b h i d :=
  funext fun a => Fin.ext (by
    match a with
    | ⟨0, _⟩ => rfl
    | ⟨1, _⟩ => rfl
    | ⟨2, _⟩ => rfl
    | ⟨3, _⟩ => rfl)

theorem ridx_qk (b : Fin 2) (h : Fin 16) (i j : Fin 2048) (d : Fin 64) :
    ridx_main_v9 (ix4 b h i j) d = ix4 b h j d :=
  funext fun a => Fin.ext (by
    match a with
    | ⟨0, _⟩ => rfl
    | ⟨1, _⟩ => rfl
    | ⟨2, _⟩ => rfl
    | ⟨3, _⟩ => rfl)

/-- The scores at (b, h, i, j). -/
theorem scores_at (b : Fin 2) (h : Fin 16) (i j : Fin 2048) :
    val_main_v12 (F := Ideal) x0 x1 x3 x4 x5 (ix4 b h i j)
      = Cert.Attn.scoresAt (Cert.Attn.proj x0 x4) (Cert.Attn.proj x1 x5) x3 b h i j := by
  rw [val_main_v12_apply, val_main_v11_apply, val_main_v9_apply, val_main_v10_apply, val_main_cst_apply]
  simp only [lidx_qk, ridx_qk, proj_q, proj_k, Ideal.mulf_def, Ideal.addf_def, Ideal.ofBits_def]
  rfl

theorem stage_scores :
    val_main_v12 (F := Ideal) x0 x1 x3 x4 x5 = Cert.Attn.scores (Cert.Attn.proj x0 x4) (Cert.Attn.proj x1 x5) x3 := by
  funext i
  obtain ⟨b, h, q, k, rfl⟩ : ∃ (b : Fin 2) (h : Fin 16) (q k : Fin 2048), i = ix4 b h q k :=
    ⟨i 0, i 1, i 2, i 3, eq_ix4 i⟩
  exact scores_at x0 x1 x3 x4 x5 b h q k

end Cert.Attn.Ref

end
-- ==== Proof.RefSoftmax.lean ====
/-
  The reference's softmax over the last axis, read at an index.

  The row maximum is a fold of `max` over the 2048 keys from −∞, once more maximised with −∞ (which changes nothing:
  −∞ is the least extended real); the exponentials of the scores less that maximum are summed from 0 over the keys; each
  exponential is divided by its row's sum.
-/
import proofs.«131576_j2379411882045_2_alg».proof.Proof.Gen.ReferenceIdeal.Read
import proofs.«131576_j2379411882045_2_alg».proof.Proof.Spec

noncomputable section

namespace Cert.Attn.Ref

open Idealize.ShloMosaic Idealize.ShloMosaic.TcCoe Idealize.SL.Sem Idealize.ShloMosaic.ValueIdx
open Cert.ReferenceIdeal Cert.ReferenceIdeal.Read

variable (x0 x1 : (⟨S2x2048x1024, .f32⟩ : BufTy).Contents (Elt Ideal))
  (x3 : (⟨S2x16x2048x2048, .f32⟩ : BufTy).Contents (Elt Ideal))
  (x4 x5 : (⟨S1024x1024, .f32⟩ : BufTy).Contents (Elt Ideal))

/-- −∞ is the least extended real: a maximum with it changes nothing. -/
theorem max_ninf (y : EReal) : max Cert.Attn.ninf y = y := by
  show max (Ideal.ofBits .f32 0xFF800000#32) y = y
  simp [Ideal.ofBits, Ideal.ieee]

/-- Dropping the last axis of [2, 16, 2048, 2048] leaves [2, 16, 2048]. -/
theorem reduces_last : S2x16x2048x2048.Reduces [3] S2x16x2048 := by decide

/-- The row (b, h, i) with key k put back on the last axis is (b, h, i, k). -/
theorem lift_last (hR : S2x16x2048x2048.Reduces [3] S2x16x2048) (b : Fin 2) (h : Fin 16) (i : Fin 2048)
    (k : Fin (S2x16x2048x2048.size 3)) :
    hR.lift (ix3 b h i) k = ix4 b h i (⟨k.val, k.isLt⟩ : Fin 2048) := by
  funext c
  apply Fin.ext
  rw [hR.lift_val]
  match c with
  | ⟨0, _⟩ => rfl
  | ⟨1, _⟩ => rfl
  | ⟨2, _⟩ => rfl
  | ⟨3, _⟩ => rfl

/-- A max-reduce over the last axis from −∞, at (b, h, i): the fold of `max` over the row from −∞. -/
theorem reduce_max_last (s : (⟨S2x16x2048x2048, .f32⟩ : BufTy).Contents (Elt Ideal))
    (hT : S2x16x2048x2048.ReducesTo [3] S2x16x2048) (hu : 0 < S_.numel) (b : Fin 2) (h : Fin 16) (i : Fin 2048) :
    Host.reduce (FloatOps.maximumf (F := Ideal) (φ := .f32)) s (val_main_cst_0 (F := Ideal)) hT hu (ix3 b h i)
      = Cert.Attn.rowmax s b h i := by
  rw [Host.reduce_eq_fold_single (FloatOps.maximumf (F := Ideal) (φ := .f32)) s _ hT reduces_last hu]
  have hf : (s ∘ reduces_last.lift (ix3 b h i)) = fun k : Fin 2048 => s (ix4 b h i k) :=
    funext fun k => congrArg s (lift_last reduces_last b h i k)
  exact congrArg (fun f : Fin 2048 → EReal => Finset.fold max Cert.Attn.ninf f (Finset.univ : Finset (Fin 2048))) hf

/-- The row maximum of the reference at (b, h, i). -/
theorem rowmax_at (b : Fin 2) (h : Fin 16) (i : Fin 2048) :
    val_main_v15 (F := Ideal) x0 x1 x3 x4 x5 (ix3 b h i)
      = Cert.Attn.rowmax (val_main_v12 (F := Ideal) x0 x1 x3 x4 x5) b h i := by
  rw [val_main_v15_apply, val_main_v14_apply, val_main_cst_1_apply]
  unfold val_main_v13
  generalize val_main_v12 (F := Ideal) x0 x1 x3 x4 x5 = s
  rw [reduce_max_last]
  exact max_ninf _

theorem row_of_col (b : Fin 2) (h : Fin 16) (i j : Fin 2048) :
    idx_main_v16 (idx_main_v17 (ix4 b h i j)) = ix3 b h i :=
  funext fun a => Fin.ext (by
    match a with
    | ⟨0, _⟩ => rfl
    | ⟨1, _⟩ => rfl
    | ⟨2, _⟩ => rfl)

theorem row_of_col' (b : Fin 2) (h : Fin 16) (i j : Fin 2048) :
    idx_main_v21 (idx_main_v22 (ix4 b h i j)) = ix3 b h i :=
  funext fun a => Fin.ext (by
    match a with
    | ⟨0, _⟩ => rfl
    | ⟨1, _⟩ => rfl
    | ⟨2, _⟩ => rfl)

theorem col_of_row (b : Fin 2) (h : Fin 16) (i j : Fin 2048) :
    idx_main_v20 (ix3 b h i) j = ix4 b h i j :=
  funext fun a => Fin.ext (by
    match a with
    | ⟨0, _⟩ => rfl
    | ⟨1, _⟩ => rfl
    | ⟨2, _⟩ => rfl
    | ⟨3, _⟩ => rfl)

/-- The exponential of a score less its row's maximum, at (b, h, i, j). -/
theorem ex_at (b : Fin 2) (h : Fin 16) (i j : Fin 2048) :
    val_main_v19 (F := Ideal) x0 x1 x3 x4 x5 (ix4 b h i j)
      = Cert.Attn.ex (val_main_v12 (F := Ideal) x0 x1 x3 x4 x5) b h i j := by
  rw [val_main_v19_apply, val_main_v18_apply, val_main_v17_apply, val_main_v16_apply, row_of_col, rowmax_at]
  rfl

/-- The sum of a row's exponentials, at (b, h, i). -/
theorem rowsum_at (b : Fin 2) (h : Fin 16) (i : Fin 2048) :
    val_main_v20 (F := Ideal) x0 x1 x3 x4 x5 (ix3 b h i)
      = ∑ j : Fin 2048, Cert.Attn.ex (val_main_v12 (F := Ideal) x0 x1 x3 x4 x5) b h i j := by
  rw [val_main_v20_apply, val_main_cst_2_apply]
  simp only [col_of_row, ex_at, Ideal.ofBits_def, Ideal.ofBits_zero_f32, zero_add]

/-- The attention weights at (b, h, i, j). -/
theorem attn_at (b : Fin 2) (h : Fin 16) (i j : Fin 2048) :
    val_main_v23 (F := Ideal) x0 x1 x3 x4 x5 (ix4 b h i j)
      = Cert.Attn.attnAt (val_main_v12 (F := Ideal) x0 x1 x3 x4 x5) b h i j := by
  rw [val_main_v23_apply, val_main_v22_apply, val_main_v21_apply, row_of_col', rowsum_at, ex_at]
  rfl

theorem stage_attn :
    val_main_v23 (F := Ideal) x0 x1 x3 x4 x5 = Cert.Attn.attn (val_main_v12 (F := Ideal) x0 x1 x3 x4 x5) := by
  funext i
  obtain ⟨b, h, q, k, rfl⟩ : ∃ (b : Fin 2) (h : Fin 16) (q k : Fin 2048), i = ix4 b h q k :=
    ⟨i 0, i 1, i 2, i 3, eq_ix4 i⟩
  exact attn_at x0 x1 x3 x4 x5 b h q k

end Cert.Attn.Ref

end
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.RefOut.lean ====
/-
  The reference's context and output, read at an index.

  The context contracts the attention weights with the projected values over the 2048 keys.  The heads are then merged
  — (b, h, s, d) moves to (b, s, h, d) and the pair (h, d) is read as the feature h·64 + d — and the 1024 merged
  features are contracted with the output matrix.  A sum over the 1024 features is the sum over the 16 heads of the
  sums over the 64 lanes of each head.
-/
import proofs.«131576_j2379411882045_2_alg».proof.Proof.RefProj
import proofs.«131576_j2379411882045_2_alg».proof.Proof.LibTiles

noncomputable section

namespace Cert.Attn.Ref

open Idealize.ShloMosaic Idealize.ShloMosaic.TcCoe Idealize.SL.Sem Idealize.ShloMosaic.ValueIdx
open Cert.ReferenceIdeal Cert.ReferenceIdeal.Read

variable (x0 x1 x2 : (⟨S2x2048x1024, .f32⟩ : BufTy).Contents (Elt Ideal))
  (x3 : (⟨S2x16x2048x2048, .f32⟩ : BufTy).Contents (Elt Ideal))
  (x4 x5 x6 x7 : (⟨S1024x1024, .f32⟩ : BufTy).Contents (Elt Ideal))

theorem lidx_av (b : Fin 2) (h : Fin 16) (i : Fin 2048) (d : Fin 64) (j : Fin 2048) :
    lidx_main_v24 (ix4 b h i d) j = ix4 b h i j :=
  funext fun a => Fin.ext (by
    match a with
    | ⟨0, _⟩ => rfl
    | ⟨1, _⟩ => rfl
    | ⟨2, _⟩ => rfl
    | ⟨3, _⟩ => rfl)

theorem ridx_av (b : Fin 2) (h : Fin 16) (i : Fin 2048) (d : Fin 64) (j : Fin 2048) :
    ridx_main_v24 (ix4 b h i d) j = ix4 b h j d :=
  funext fun a => Fin.ext (by
    match a with
    | ⟨0, _⟩ => rfl
    | ⟨1, _⟩ => rfl
    | ⟨2, _⟩ => rfl
    | ⟨3, _⟩ => rfl)

/-- The context at (b, h, i, d). -/
theorem ctx_at (b : Fin 2) (h : Fin 16) (i : Fin 2048) (d : Fin 64) :
    val_main_v24 (F := Ideal) x0 x1 x2 x3 x4 x5 x6 (ix4 b h i d)
      = Cert.Attn.ctxAt (val_main_v23 (F := Ideal) x0 x1 x3 x4 x5) (Cert.Attn.proj x2 x6) b h i d := by
  rw [val_main_v24_apply]
  simp only [lidx_av, ridx_av, proj_v]
  rfl

theorem stage_ctx :
    val_main_v24 (F := Ideal) x0 x1 x2 x3 x4 x5 x6
      = Cert.Attn.ctx (val_main_v23 (F := Ideal) x0 x1 x3 x4 x5) (Cert.Attn.proj x2 x6) := by
  funext i
  obtain ⟨b, h, q, d, rfl⟩ : ∃ (b : Fin 2) (h : Fin 16) (q : Fin 2048) (d : Fin 64), i = ix4 b h q d :=
    ⟨i 0, i 1, i 2, i 3, eq_ix4 i⟩
  exact ctx_at x0 x1 x2 x3 x4 x5 x6 b h q d

/-- Row-major position of (b, s, h·64 + d) in [2, 2048, 1024], read as [2, 2048, 16, 64]: (b, s, h, d). -/
theorem merge_idx (b : Fin 2) (s : Fin 2048) (h : Fin 16) (d : Fin 64) :
    idx_main_v26 (ix3 b s (Cert.Attn.hd h d)) = ix4 b s h d := by
  have hb := b.isLt; have hh := h.isLt; have hs := s.isLt; have hd := d.isLt
  funext a
  apply Fin.ext
  match a with
  | ⟨0, _⟩ =>
    show ((b.val * 2048 + s.val) * 1024 + (h.val * 64 + d.val)) / 2097152 = b.val
    omega
  | ⟨1, _⟩ =>
    show ((b.val * 2048 + s.val) * 1024 + (h.val * 64 + d.val)) / 1024 % 2048 = s.val
    omega
  | ⟨2, _⟩ =>
    show ((b.val * 2048 + s.val) * 1024 + (h.val * 64 + d.val)) / 64 % 16 = h.val
    omega
  | ⟨3, _⟩ =>
    show ((b.val * 2048 + s.val) * 1024 + (h.val * 64 + d.val)) % 64 = d.val
    omega

/-- Moving the head axis back behind the position axis: (b, s, h, d) is read at (b, h, s, d). -/
theorem unswap_idx (b : Fin 2) (s : Fin 2048) (h : Fin 16) (d : Fin 64) :
    idx_main_v25 (ix4 b s h d) = ix4 b h s d :=
  funext fun a => Fin.ext (by
    match a with
    | ⟨0, _⟩ => rfl
    | ⟨1, _⟩ => rfl
    | ⟨2, _⟩ => rfl
    | ⟨3, _⟩ => rfl)

/-- The merged context at (b, s, h·64 + d) is the context at (b, h, s, d). -/
theorem merged_at (b : Fin 2) (s : Fin 2048) (h : Fin 16) (d : Fin 64) :
    val_main_v26 (F := Ideal) x0 x1 x2 x3 x4 x5 x6 (ix3 b s (Cert.Attn.hd h d))
      = val_main_v24 (F := Ideal) x0 x1 x2 x3 x4 x5 x6 (ix4 b h s d) := by
  rw [val_main_v26_apply, merge_idx, val_main_v25_apply, unswap_idx]

theorem lidx_o (b : Fin 2) (s : Fin 2048) (n : Fin 1024) (e : Fin 1024) :
    lidx_main_v27 (ix3 b s n) e = ix3 b s e :=
  funext fun a => Fin.ext (by
    match a with
    | ⟨0, _⟩ => rfl
    | ⟨1, _⟩ => rfl
    | ⟨2, _⟩ => rfl)

theorem ridx_o (b : Fin 2) (s : Fin 2048) (n : Fin 1024) (e : Fin 1024) :
    ridx_main_v27 (ix3 b s n) e = ix2 n e :=
  funext fun a => Fin.ext (by
    match a with
    | ⟨0, _⟩ => rfl
    | ⟨1, _⟩ => rfl)

/-- A sum over the 1024 features, by heads and lanes. -/
theorem sum_heads (f : Fin 1024 → EReal) :
    ∑ e : Fin 1024, f e = ∑ h : Fin 16, ∑ d : Fin 64, f (Cert.Attn.hd h d) :=
  Cert.Lib.Tiles.sum_tiles 16 64 f

/-- The output at (b, s, n). -/
theorem out_at (b : Fin 2) (s : Fin 2048) (n : Fin 1024) :
    val_main_v27 (F := Ideal) x0 x1 x2 x3 x4 x5 x6 x7 (ix3 b s n)
      = Cert.Attn.outAt (val_main_v24 (F := Ideal) x0 x1 x2 x3 x4 x5 x6) x7 b s n := by
  rw [val_main_v27_apply]
  simp only [lidx_o, ridx_o]
  rw [sum_heads]
  simp only [merged_at]
  rfl

theorem stage_out :
    val_main_v27 (F := Ideal) x0 x1 x2 x3 x4 x5 x6 x7
      = Cert.Attn.out (val_main_v24 (F := Ideal) x0 x1 x2 x3 x4 x5 x6) x7 := by
  funext i
  obtain ⟨b, s, n, rfl⟩ : ∃ (b : Fin 2) (s : Fin 2048) (n : Fin 1024), i = ix3 b s n :=
    ⟨i 0, i 1, i 2, eq_ix3 i⟩
  exact out_at x0 x1 x2 x3 x4 x5 x6 x7 b s n

end Cert.Attn.Ref

end
-- ==== Proof.Ref.lean ====
/-
  The reference's three results as the specification's functions composed: the scores, the attention weights (the
  softmax of the scores), and the output (the context of the weights and the projected values, heads merged, projected).
-/
import proofs.«131576_j2379411882045_2_alg».proof.Proof.Gen.ReferenceIdeal.Read
import proofs.«131576_j2379411882045_2_alg».proof.Proof.Spec
import proofs.«131576_j2379411882045_2_alg».proof.Proof.RefScores
import proofs.«131576_j2379411882045_2_alg».proof.Proof.RefSoftmax
import proofs.«131576_j2379411882045_2_alg».proof.Proof.RefOut

noncomputable section

namespace Cert.Attn.Ref

open Idealize.ShloMosaic Idealize.ShloMosaic.TcCoe Idealize.SL.Sem Idealize.ShloMosaic.ValueIdx
open Cert.ReferenceIdeal Cert.ReferenceIdeal.Read

variable (x0 x1 x2 : (⟨S2x2048x1024, .f32⟩ : BufTy).Contents (Elt Ideal))
  (x3 : (⟨S2x16x2048x2048, .f32⟩ : BufTy).Contents (Elt Ideal))
  (x4 x5 x6 x7 : (⟨S1024x1024, .f32⟩ : BufTy).Contents (Elt Ideal))

theorem ref_scores :
    val_main_v12 (F := Ideal) x0 x1 x3 x4 x5 = Cert.Attn.scores (Cert.Attn.proj x0 x4) (Cert.Attn.proj x1 x5) x3 :=
  stage_scores x0 x1 x3 x4 x5

theorem ref_attn :
    val_main_v23 (F := Ideal) x0 x1 x3 x4 x5
      = Cert.Attn.attn (Cert.Attn.scores (Cert.Attn.proj x0 x4) (Cert.Attn.proj x1 x5) x3) := by
  rw [stage_attn, stage_scores]

theorem ref_out :
    val_main_v27 (F := Ideal) x0 x1 x2 x3 x4 x5 x6 x7
      = Cert.Attn.out (Cert.Attn.ctx (Cert.Attn.attn (Cert.Attn.scores (Cert.Attn.proj x0 x4) (Cert.Attn.proj x1 x5) x3))
          (Cert.Attn.proj x2 x6)) x7 := by
  rw [stage_out, stage_ctx, stage_attn, stage_scores]

end Cert.Attn.Ref

end
-- ==== Proof.lean ====
/-
  Multi-head attention with an additive score bias: a kernel program of five regions against a plain reference.

  Both programs compute, from activations Q, K, V [2, 2048, 1024], a bias P [2, 16, 2048, 2048] and four 1024 × 1024
  matrices, the scores s = (q · kᵀ)/8 + P of the head-split projections q, k, the row softmax a of s, and the output
  (a · v, heads merged) · W_Oᵀ  (Proof/Spec.lean).  The kernel program projects each activation directly into head-major
  layout, one region each (Proof/KProj.lean), computes scores, softmax and context tile by tile over whole key rows
  (Proof/KAttn.lean), and accumulates the output projection head by head against the transposed matrix
  (Proof/KOut.lean); between its regions every buffer keeps its contents (Proof/KChain.lean), and its run ends with
  the three results at the last boundary's contents (Proof/KRun.lean).  The reference computes the same with whole-array
  contractions, reshapes and transposes (Proof/Ref.lean).  On the extended reals the two agree entry by entry with
  no hypothesis on the inputs: a change of float format is the identity, both softmaxes start their maximum at −∞ and
  their sum at 0, and the only rearrangement — one sum over 1024 features against sixteen sums over 64 lanes — uses
  nothing but commutativity and associativity of addition.  The kernel program at the exact values is the same
  operations as at the word level, so the conjunct relating the two is `True`.
-/
import proofs.«131576_j2379411882045_2_alg».proof.Defs
import proofs.«131576_j2379411882045_2_alg».proof.Proof.Gen.Kernel
import proofs.«131576_j2379411882045_2_alg».proof.Proof.Gen.Kernel.Frame
import proofs.«131576_j2379411882045_2_alg».proof.Proof.Gen.KernelIdeal
import proofs.«131576_j2379411882045_2_alg».proof.Proof.Gen.KernelIdeal.Frame
import proofs.«131576_j2379411882045_2_alg».proof.Proof.Gen.ReferenceIdeal
import proofs.«131576_j2379411882045_2_alg».proof.Proof.Gen.Pre_finite_inputs
import proofs.«131576_j2379411882045_2_alg».proof.Proof.Gen.ReferenceIdeal.Run
import proofs.«131576_j2379411882045_2_alg».proof.Proof.Gen.ReferenceIdeal.Read
import proofs.«131576_j2379411882045_2_alg».proof.Proof.Spec
import proofs.«131576_j2379411882045_2_alg».proof.Proof.KChain
import proofs.«131576_j2379411882045_2_alg».proof.Proof.KRun
import proofs.«131576_j2379411882045_2_alg».proof.Proof.Ref
import Idealize.ShloMosaic.Adequacy
import Idealize.ShloMosaic.Init

noncomputable section

namespace Cert.Proof

open Idealize.ShloMosaic Idealize.SL.Sem

/-- The kernel program at the word level terminates, nothing faulting, with its arguments unchanged. -/
theorem frame_k : Cert.frame_Kernel := fun m ρ _ => Cert.Kernel.Gen.frame m ρ

/-- So does the same program at the exact values. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The specification's three results are functions of the arguments alone: equal arguments, equal results. -/
theorem results_congr {x0 x1 x2 y0 y1 y2 : Cert.Attn.Sx.Idx → EReal} {x3 y3 : Cert.Attn.Ss.Idx → EReal}
    {x4 x5 x6 x7 y4 y5 y6 y7 : Cert.Attn.Sw.Idx → EReal}
    (e0 : x0 = y0) (e1 : x1 = y1) (e2 : x2 = y2) (e3 : x3 = y3) (e4 : x4 = y4) (e5 : x5 = y5) (e6 : x6 = y6) (e7 : x7 = y7) :
    Cert.Attn.out (Cert.Attn.ctx (Cert.Attn.attn (Cert.Attn.scores (Cert.Attn.proj x0 x4) (Cert.Attn.proj x1 x5) x3))
        (Cert.Attn.proj x2 x6)) x7
      = Cert.Attn.out (Cert.Attn.ctx (Cert.Attn.attn (Cert.Attn.scores (Cert.Attn.proj y0 y4) (Cert.Attn.proj y1 y5) y3))
        (Cert.Attn.proj y2 y6)) y7
    ∧ Cert.Attn.attn (Cert.Attn.scores (Cert.Attn.proj x0 x4) (Cert.Attn.proj x1 x5) x3)
      = Cert.Attn.attn (Cert.Attn.scores (Cert.Attn.proj y0 y4) (Cert.Attn.proj y1 y5) y3)
    ∧ Cert.Attn.scores (Cert.Attn.proj x0 x4) (Cert.Attn.proj x1 x5) x3
      = Cert.Attn.scores (Cert.Attn.proj y0 y4) (Cert.Attn.proj y1 y5) y3 := by
  subst e0 e1 e2 e3 e4 e5 e6 e7
  exact ⟨rfl, rfl, rfl⟩

/-- From memories agreeing on the arguments both programs, at the exact values, end with the same output, attention
    weights and scores: the specification's, of the arguments. -/
theorem algebraic : Cert.algebraic_KernelIdeal_ReferenceIdeal := by
  intro m ρ m' ρ' _ hagree
  refine ⟨fun c => Cert.Attn.KChain.ou m c, fun c => Cert.Attn.attn (Cert.Attn.KChain.sc m c),
    fun c => Cert.Attn.KChain.sc m c, ?_, ?_⟩
  · refine (θ_run Cert.KernelIdeal.defs _ _).mono (fun r h c => ?_) (Cert.Attn.KRun.run_values (F := Ideal) m ρ)
    obtain ⟨h0, h1, h2, hargs⟩ := h c
    exact ⟨h0.trans (Cert.Attn.KChain.out_eq m ρ c), h1.trans (Cert.Attn.KChain.res_attn_eq m ρ c),
      h2.trans (Cert.Attn.KChain.res_scores_eq m ρ c), hargs⟩
  · refine (θ_run Cert.ReferenceIdeal.defs _ _).mono (fun r h c => ?_)
      (Cert.ReferenceIdeal.Value.run (F := Ideal) m' ρ')
    obtain ⟨h0, h1, h2, hargs⟩ := h c
    obtain ⟨e0, e1, e2, e3, e4, e5, e6, e7⟩ := hagree c
    obtain ⟨c0, c1, c2⟩ := results_congr e0 e1 e2 e3 e4 e5 e6 e7
    refine ⟨h0.trans ?_, h1.trans ?_, h2.trans ?_, hargs⟩
    · exact (Cert.ReferenceIdeal.Read.val_main_v27_eq m' c).trans ((Cert.Attn.Ref.ref_out _ _ _ _ _ _ _ _).trans c0)
    · exact (Cert.ReferenceIdeal.Read.val_main_v23_eq m' c).trans ((Cert.Attn.Ref.ref_attn _ _ _ _ _).trans c1)
    · exact (Cert.ReferenceIdeal.Read.val_main_v12_eq _ _ _ _ _).trans ((Cert.Attn.Ref.ref_scores _ _ _ _ _).trans c2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
